-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "one_minus_dt" .f32 0x3F666666#32 ((120795955 / 134217728 : ℝ) : EReal)
  ∧ IdealRules.named_const.Statement Cert.KernelIdeal.κ "one_minus_dt" .f32 0x3F666666#32 ((120795955 / 134217728 : ℝ) : EReal)
  ∧ IdealRules.named_const.Statement Cert.KernelIdeal.κ "one_minus_dt" .f32 0x3F666666#32 ((120795955 / 134217728 : ℝ) : EReal)
  ∧ IdealRules.named_const.Statement Cert.KernelIdeal.κ "one_minus_dt" .f32 0x3F666666#32 ((120795955 / 134217728 : ℝ) : EReal)
  ∧ IdealRules.named_const.Statement Cert.KernelIdeal.κ "one_minus_dt" .f32 0x3F666666#32 ((120795955 / 134217728 : ℝ) : EReal)
  ∧ IdealRules.named_const.Statement Cert.KernelIdeal.κ "one_minus_dt" .f32 0x3F666666#32 ((120795955 / 134217728 : ℝ) : EReal)
  ∧ IdealRules.named_const.Statement Cert.KernelIdeal.κ "one_minus_dt" .f32 0x3F666666#32 ((120795955 / 134217728 : ℝ) : EReal)
  ∧ IdealRules.named_const.Statement Cert.KernelIdeal.κ "one_minus_dt" .f32 0x3F666666#32 ((120795955 / 134217728 : ℝ) : EReal)
  ∧ IdealRules.named_const.Statement Cert.KernelIdeal.κ "one_minus_dt" .f32 0x3F666666#32 ((120795955 / 134217728 : ℝ) : EReal)
  ∧ IdealRules.named_const.Statement Cert.KernelIdeal.κ "one_minus_dt" .f32 0x3F666666#32 ((120795955 / 134217728 : ℝ) : EReal)
  ∧ IdealRules.named_const.Statement Cert.KernelIdeal.κ "one_minus_dt" .f32 0x3F666666#32 ((120795955 / 134217728 : ℝ) : EReal)
  ∧ IdealRules.named_const.Statement Cert.KernelIdeal.κ "one_minus_dt" .f32 0x3F666666#32 ((120795955 / 134217728 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S1024x512 : Shape := ⟨2, ![1024, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8192x512 .f32) (main_arg1 : FVec F S8192x512 .f32) (main_arg2 : FVec F S1024x512 .f32) (main_arg3 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8192x512 : Shape := ⟨2, ![8192, 512]⟩
abbrev S1024x512 : Shape := ⟨2, ![1024, 512]⟩
abbrev S512 : Shape := ⟨1, ![512]⟩
abbrev S512x512 : Shape := ⟨2, ![512, 512]⟩
abbrev S1x512 : Shape := ⟨2, ![1, 512]⟩

abbrev nBuf : Space → Nat
  | .hbm => 10
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x512, .f32⟩
  | .hbm, ⟨3, _⟩ => ⟨S512, .f32⟩
  | .hbm, ⟨4, _⟩ => ⟨S512x512, .f32⟩
  | .hbm, ⟨5, _⟩ => ⟨S512x512, .bf16⟩
  | .hbm, ⟨6, _⟩ => ⟨S512x512, .f32⟩
  | .hbm, ⟨7, _⟩ => ⟨S512x512, .bf16⟩
  | .hbm, ⟨8, _⟩ => ⟨S1x512, .f32⟩
  | .hbm, ⟨9, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S1024x512_S512x512_0_0 : S1024x512.Slices ![0, 0] S512x512
  bitsLt_bf16_f32 : FTy.bits .bf16 < FTy.bits .f32
  slices_S1024x512_S512x512_512_0 : S1024x512.Slices ![512, 0] S512x512
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S1024x512_o0_0_S512x512 : S1024x512.Slices ![0, 0] S512x512
  slices_S1024x512_o512_0_S512x512 : S1024x512.Slices ![512, 0] S512x512
  inb_S1024x512_S512x512_0_0 : ∀ a, (![0, 0] : Fin 2 → Nat) a + S512x512.size a ≤ S1024x512.size a
  inb_S1024x512_S512x512_512_0 : ∀ a, (![512, 0] : Fin 2 → Nat) a + S512x512.size a ≤ S1024x512.size a
  dot_S1024x512_S512x512_S1024x512_1_0_0_1_n_n_wf : DotDims.WF S1024x512 S512x512 S1024x512 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x512.size a
  hwx0_5 : ∀ i : grid0.Coords, EltTy.bits .f32 = 32 ∨ (Rect.block (s := S8192x512) S1024x512.size (cc0_transform_5 i) (hinb0_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x512 : Shape := ⟨2, ![8192, 512]⟩
abbrev S1024x512 : Shape := ⟨2, ![1024, 512]⟩
abbrev S512 : Shape := ⟨1, ![512]⟩
abbrev S8192x1024 : Shape := ⟨2, ![8192, 1024]⟩
abbrev S1x512 : Shape := ⟨2, ![1, 512]⟩
abbrev S_ : Shape := ⟨0, ![]⟩

abbrev nBuf : Space → Nat
  | .hbm => 94
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x512, .f32⟩
  | .hbm, ⟨3, _⟩ => ⟨S512, .f32⟩
  | .hbm, ⟨4, _⟩ => ⟨S8192x1024, .f32⟩
  | .hbm, ⟨5, _⟩ => ⟨S8192x512, .f32⟩
  | .hbm, ⟨6, _⟩ => ⟨S1x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x1024, .f32⟩
  | .hbm, ⟨20, _⟩ => ⟨S8192x512, .f32⟩
  | .hbm, ⟨21, _⟩ => ⟨S1x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x1024, .f32⟩
  | .hbm, ⟨35, _⟩ => ⟨S8192x512, .f32⟩
  | .hbm, ⟨36, _⟩ => ⟨S1x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x1024, .f32⟩
  | .hbm, ⟨50, _⟩ => ⟨S8192x512, .f32⟩
  | .hbm, ⟨51, _⟩ => ⟨S1x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S_, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S_, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S8192x1024, .f32⟩
  | .hbm, ⟨65, _⟩ => ⟨S8192x512, .f32⟩
  | .hbm, ⟨66, _⟩ => ⟨S1x512, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S_, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S_, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x1024, .f32⟩
  | .hbm, ⟨80, _⟩ => ⟨S8192x512, .f32⟩
  | .hbm, ⟨81, _⟩ => ⟨S1x512, .f32⟩
  | .hbm, ⟨82, _⟩ => ⟨S8192x512, .f32⟩
  | .hbm, ⟨83, _⟩ => ⟨S8192x512, .f32⟩
  | .hbm, ⟨84, _⟩ => ⟨S8192x512, .f32⟩
  | .hbm, ⟨85, _⟩ => ⟨S8192x512, .f32⟩
  | .hbm, ⟨86, _⟩ => ⟨S_, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S_, .f32⟩
  | .hbm, ⟨91, _⟩ => ⟨S8192x512, .f32⟩
  | .hbm, ⟨92, _⟩ => ⟨S8192x512, .f32⟩
  | .hbm, ⟨93, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_7 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_8 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_9 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_10 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩

abbrev nD : Nat := 1
abbrev τ : Topo := Topo.v7x

variable {F : FTy → Type} [FloatOps F]

class Facts₀ : Prop where
  concatenates_S8192x512_S8192x512_S8192x1024_d1 : Shape.Concatenates [S8192x512, S8192x512] S8192x1024 1
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  dot_S8192x1024_S1024x512_S8192x512_1_0_0_1_n_n_wf : DotDims.WF S8192x1024 S1024x512 S8192x512 [1] [0] [0] [1] [] []

variable [Facts₀]

def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf

class Facts : Prop extends Facts₀ where

variable [Facts]
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.LibFinite.lean ====
/-
  General facts about finiteness on the extended reals, for certificates whose precondition says that every
  float input is finite and whose algebra (distributivity, cancellation) needs it.

  * `coe_sum`: the inclusion of the reals into the extended reals commutes with finite sums, so an identity
    between sums of finite entries can be proved over the reals and carried back.
  * `ofBool_one`, `inf_word`, `finite_of_abs_lt`: one element of a printed `|x| < +∞` test, read back — the
    f32 word `0x7F800000` is `+∞`, `|x|` is `max x (-x)`, and that is below `+∞` only when `x` is a real number.
-/
import Idealize.ShloMosaic.PureOps.Ideal
import Idealize.ShloMosaic.PureOps.Ideal.Laws

namespace Cert.LibFinite

open Idealize.ShloMosaic

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A Boolean read as a one-bit word is the word 1 exactly when it is true. -/
theorem ofBool_one (b : Bool) : BitVec.ofBool b = 1#1 ↔ b = true := by cases b <;> decide

/-- The f32 word `0x7F800000` is `+∞`. -/
theorem inf_word : Ideal.ofBits .f32 0x7F800000#32 = ⊤ := by simp [Ideal.ofBits, Ideal.ieee]

/-- An extended real whose absolute value compares below `+∞` is neither infinity: `|x| = max x (-x)` is `+∞` at
    both. (The host's and the kernel's absolute value are one function on the extended reals.) -/
theorem finite_of_abs_lt (x : EReal)
    (h : FloatOps.cmpf (F := Ideal) (φ := .f32) .olt (FloatOps.hostAbsf (F := Ideal) (φ := .f32) x)
      (Ideal.ofBits .f32 0x7F800000#32) = 1#1) : x ≠ ⊤ ∧ x ≠ ⊥ := by
  rw [Ideal.hostAbsf_def, Ideal.absf_def, Ideal.cmpf_def, inf_word] at h
  have h2 : BitVec.ofBool (decide (max x (-x) < ⊤)) = 1#1 := h
  have h' : max x (-x) < ⊤ := of_decide_eq_true ((ofBool_one _).1 h2)
  induction x using EReal.rec with
  | bot => simp at h'
  | top => simp at h'
  | coe r => exact ⟨EReal.coe_ne_top r, EReal.coe_ne_bot r⟩

end Cert.LibFinite
-- ==== Proof.Cell.lean ====
/-
  The continuous-time recurrent cell, as real arithmetic.

  One Euler step of the cell sends a state matrix s (8192 rows, 512 columns) to

      s + dt · ( −s/1 + tanh( [x , s] · W + b ) ),

  where [x , s] is the row-wise concatenation of the fixed input x with the state and W has 1024 rows.
  Splitting W into its upper half (the rows that meet x) and its lower half (the rows that meet s) gives the
  tiled form of the same step,

      (1 − dt) · s + dt · tanh( (x · W_upper + b) + s · W_lower ),

  in which the input projection x · W_upper + b does not change from step to step. The two forms agree over
  the reals (`cell_euler`): the sum over 1024 columns splits into two sums of 512, addition is reassociated,
  and dt is distributed over the bracket. The last step is where finiteness is used: on the extended reals
  distributivity fails at the infinities, so both programs are first read on real entries.

  The step size dt is the exact value 13421773 / 2^27 of the single-precision word 0x3DCCCCCD, and
  1 − dt = 120795955 / 2^27.
-/
import Idealize.ShloMosaic.PureOps.Ideal
import Idealize.ShloMosaic.Lib.ValueIdx
import proofs.«108348_j31550829756934_2_alg».proof.Proof.LibFinite

noncomputable section

namespace Cert.Cell

open Idealize.ShloMosaic

/-- The step size: the exact value of the single-precision word 0x3DCCCCCD. -/
def dt : ℝ := 13421773 / 134217728

/-- Row k of the upper half of the weight matrix. -/
def lo (k : Fin 512) : Fin 1024 := ⟨k.val, by omega⟩
/-- Row k of the lower half of the weight matrix. -/
def hi (k : Fin 512) : Fin 1024 := ⟨512 + k.val, by omega⟩

variable (x : Fin 8192 → Fin 512 → ℝ) (w : Fin 1024 → Fin 512 → ℝ) (b : Fin 512 → ℝ)

/-- The input projection plus bias, the part of the pre-activation that no step changes. -/
def drive (p : Fin 8192) (q : Fin 512) : ℝ := (∑ k : Fin 512, x p k * w (lo k) q) + b q

/-- One step of the cell in its tiled form. -/
def cell (s : Fin 8192 → Fin 512 → ℝ) : Fin 8192 → Fin 512 → ℝ := fun p q =>
  120795955 / 134217728 * s p q + dt * Real.tanh (drive x w b p q + ∑ k : Fin 512, s p k * w (hi k) q)

/-- Row p of the concatenation [x , s]. -/
def cat (s : Fin 8192 → Fin 512 → ℝ) (p : Fin 8192) (k : Fin 1024) : ℝ :=
  if h : k.val < 512 then x p ⟨k.val, h⟩ else s p ⟨k.val - 512, by omega⟩

/-- A row of [x , s] against a column of W is the row of x against the upper half plus the row of s against
    the lower half. -/
theorem sum_cat (s : Fin 8192 → Fin 512 → ℝ) (p : Fin 8192) (q : Fin 512) :
    ∑ k : Fin 1024, cat x s p k * w k q
      = (∑ k : Fin 512, x p k * w (lo k) q) + ∑ k : Fin 512, s p k * w (hi k) q := by
  have h := Fin.sum_univ_add (fun k : Fin (512 + 512) => cat x s p k * w k q)
  refine h.trans ?_
  have e1 : ∀ k : Fin 512, cat x s p (Fin.castAdd 512 k) = x p k := fun k => by
    unfold cat
    rw [dif_pos (show (Fin.castAdd 512 k : Fin (512 + 512)).val < 512 from k.isLt)]
    rfl
  have e2 : ∀ k : Fin 512, cat x s p (Fin.natAdd 512 k) = s p k := fun k => by
    unfold cat
    rw [dif_neg (show ¬ (Fin.natAdd 512 k : Fin (512 + 512)).val < 512 from by
      show ¬ 512 + k.val < 512; omega)]
    exact congrArg (s p) (Fin.ext (by show 512 + k.val - 512 = k.val; omega))
  simp only [e1, e2]
  rfl

/-- The Euler form of the step is the tiled form, over the reals. -/
theorem cell_euler (s : Fin 8192 → Fin 512 → ℝ) (p : Fin 8192) (q : Fin 512) :
    s p q + dt * (-(s p q) * (1 / 1) + Real.tanh ((∑ k : Fin 1024, cat x s p k * w k q) + b q))
      = cell x w b s p q := by
  have e : (∑ k : Fin 1024, cat x s p k * w k q) + b q
      = drive x w b p q + ∑ k : Fin 512, s p k * w (hi k) q := by
    rw [sum_cat]; unfold drive; ring
  rw [e]
  unfold cell dt
  ring

/-! ## The two steps on extended reals whose operands are real -/

/-- A dot product of real entries, computed on the extended reals, is the real dot product. -/
theorem coe_dot {n : Nat} (f g : Fin n → ℝ) :
    ∑ k : Fin n, ((f k : ℝ) : EReal) * ((g k : ℝ) : EReal) = ((∑ k : Fin n, f k * g k : ℝ) : EReal) := by
  rw [Cert.LibFinite.coe_sum]
  exact Finset.sum_congr rfl fun k _ => (EReal.coe_mul _ _).symm

/-- The tiled step at one entry, on real operands. -/
theorem tiled_coe (sv dv : ℝ) (f g : Fin 512 → ℝ) :
    ((120795955 / 134217728 : ℝ) : EReal) * (sv : EReal)
        + (dt : EReal) * Ideal.tanh ((dv : EReal) + ∑ k : Fin 512, ((f k : ℝ) : EReal) * ((g k : ℝ) : EReal))
      = ((120795955 / 134217728 * sv + dt * Real.tanh (dv + ∑ k : Fin 512, f k * g k) : ℝ) : EReal) := by
  rw [coe_dot, ← EReal.coe_add, Ideal.tanh_coe, ← EReal.coe_mul, ← EReal.coe_mul, ← EReal.coe_add]

/-- The Euler step at one entry, on real operands; the division by one is the product with 1/1. -/
theorem euler_coe (sv bv : ℝ) (f g : Fin 1024 → ℝ) :
    (sv : EReal) + (dt : EReal) * (Ideal.div (-(sv : EReal)) ((1 : ℝ) : EReal)
        + Ideal.tanh ((∑ k : Fin 1024, ((f k : ℝ) : EReal) * ((g k : ℝ) : EReal)) + (bv : EReal)))
      = ((sv + dt * (-sv * (1 / 1) + Real.tanh ((∑ k : Fin 1024, f k * g k) + bv)) : ℝ) : EReal) := by
  rw [Ideal.div_coe one_ne_zero, coe_dot, ← EReal.coe_neg, ← EReal.coe_mul, ← EReal.coe_add, Ideal.tanh_coe,
    ← EReal.coe_add, ← EReal.coe_mul, ← EReal.coe_add]

/-! ## The words the programs spell -/

/-- The word 0x3DCCCCCD denotes dt. -/
theorem ofBits_dt : Ideal.ofBits .f32 0x3DCCCCCD#32 = ((dt : ℝ) : EReal) := by
  unfold dt
  simp [Ideal.ofBits, Ideal.ieee, -EReal.coe_mul]; norm_num

/-- The word 0x3F800000 denotes 1. -/
theorem ofBits_one : Ideal.ofBits .f32 0x3F800000#32 = ((1 : ℝ) : EReal) := by
  simp [Ideal.ofBits, Ideal.ieee, -EReal.coe_mul]; norm_num

/-! ## Arrays of real entries -/

open Idealize.ShloMosaic.ValueIdx

/-- The real entries of a matrix of extended reals (the value is meaningful where the entry is finite). -/
def mat {a c : Nat} (X : (⟨2, ![a, c]⟩ : Shape).Idx → EReal) : Fin a → Fin c → ℝ := fun p q => (X (ix2 p q)).toReal

/-- The real entries of a vector of extended reals. -/
def vec {a : Nat} (X : (⟨1, ![a]⟩ : Shape).Idx → EReal) : Fin a → ℝ := fun q => (X (ix1 q)).toReal

/-- Every entry is a real number. -/
def Finite {S : Shape} (X : S.Idx → EReal) : Prop := ∀ i, X i ≠ ⊤ ∧ X i ≠ ⊥

theorem mat_coe {a c : Nat} {X : (⟨2, ![a, c]⟩ : Shape).Idx → EReal} (h : Finite X) (p : Fin a) (q : Fin c) :
    X (ix2 p q) = ((mat X p q : ℝ) : EReal) := (EReal.coe_toReal (h _).1 (h _).2).symm

theorem vec_coe {a : Nat} {X : (⟨1, ![a]⟩ : Shape).Idx → EReal} (h : Finite X) (q : Fin a) :
    X (ix1 q) = ((vec X q : ℝ) : EReal) := (EReal.coe_toReal (h _).1 (h _).2).symm

/-- Six steps of the cell from the state S, with input X, weights W and bias B, on the arrays' real entries:
    what both programs return. -/
def result (X S : (⟨2, ![8192, 512]⟩ : Shape).Idx → EReal) (W : (⟨2, ![1024, 512]⟩ : Shape).Idx → EReal)
    (B : (⟨1, ![512]⟩ : Shape).Idx → EReal) : (⟨2, ![8192, 512]⟩ : Shape).Idx → EReal :=
  fun i => ((((cell (mat X) (mat W) (vec B))^[6] (mat S)) ⟨(i 0).val, idx2_lt0 i⟩ ⟨(i 1).val, idx2_lt1 i⟩ : ℝ) : EReal)

end Cert.Cell

end
-- ==== Proof.TileStep.lean ====
/-
  The kernel's body on one tile of 1024 rows, read entry by entry.

  The body computes the input projection of the whole tile once (a product with the upper half of the weights
  plus the bias), cuts it and the state into two halves of 512 rows, and runs six steps of the cell on each half:
  a product of the half's state with the lower half of the weights, a hyperbolic tangent, and the affine update
  (1 − dt) · s + dt · tanh(…). The twelve unrolled steps are twelve copies of one function of a 512-row state
  (`tileStep`); the two halves are stored to the upper and lower 512 rows of the output tile.

  Rows of a tile do not interact: entry (p, q) of a step depends on row p of the state only. So if the tile's
  rows are rows ρ(0), ρ(1), … of a global state of real entries, each step of the tile is the cell's step of the
  global state, read on those rows (`tileStep_apply`), and after six steps the stored tile holds six steps of the
  cell on those rows (`out_tile`).
-/
import proofs.«108348_j31550829756934_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.IdealRules
import proofs.«108348_j31550829756934_2_alg».proof.Proof.LibContractPlain
import proofs.«108348_j31550829756934_2_alg».proof.Proof.Cell

set_option pp.maxSteps 5000
set_option pp.deepTerms false

noncomputable section

namespace Cert.KernelIdeal.Tile

open Cert.KernelIdeal Cert.KernelIdeal.Gen Idealize.ShloMosaic Idealize.ShloMosaic.ValueIdx Cert.Cell

/-- Row p of the upper half of a 1024-row tile. -/
def rowA (p : Fin 512) : Fin 1024 := ⟨p.val, by omega⟩
/-- Row p of the lower half of a 1024-row tile. -/
def rowB (p : Fin 512) : Fin 1024 := ⟨512 + p.val, by omega⟩

section AnyFormat

variable {F : FTy → Type} [FloatOps F] [Named F]

/-- One step of the cell on a half tile: xw is the half's input projection, wr the lower half of the weights. -/
def tileStep (xw : FVec F S512x512 .f32) (wr : FVec F S512x512 .bf16) (s : FVec F S512x512 .f32) :
    FVec F S512x512 .f32 :=
  addf (mulf (broadcast S512x512 (Named.named κ "one_minus_dt" 0x3F666666#32 : F .f32)) s)
    (mulf (broadcast S512x512 (Scalar.ofBits .f32 0x3DCCCCCD#32 : F .f32))
      (tanh (addf xw (matmul dot_S512x512_S512x512_S512x512_1_0_0_1_n_n none (truncf .bf16 s bitsLt_bf16_f32) wr
        (constant S512x512 .f32 0x00000000#32)))))

/-- What the body stores to the upper half of the output tile is six steps from the upper half of the state. -/
theorem storeA_eq (v0 : Vec F S1024x512 .f32) (v2 v4 : Vec F S512x512 .bf16) (v6 : Vec F S1x512 .f32)
    (v13 : Vec F S512x512 .f32) :
    k0_pay13 (k0_pay1 v4) (k0_pay3 v0 v2 v6)
        (k0_pay11 (k0_pay1 v4) (k0_pay3 v0 v2 v6) (k0_pay5 v0 v2 v4 v6 v13) (k0_pay7 v0 v2 v4 v6 v13))
      = (tileStep (k0_pay3 v0 v2 v6) (k0_pay1 v4))^[6] v13 := rfl

/-- What the body stores to the lower half of the output tile is six steps from the lower half of the state. -/
theorem storeB_eq (v0 : Vec F S1024x512 .f32) (v2 v4 : Vec F S512x512 .bf16) (v6 : Vec F S1x512 .f32)
    (v14 : Vec F S512x512 .f32) :
    k0_pay14 (k0_pay1 v4) (k0_pay4 v0 v2 v6)
        (k0_pay9 (k0_pay1 v4) (k0_pay4 v0 v2 v6) (k0_pay6 v0 v2 v4 v6 v14) (k0_pay8 v0 v2 v4 v6 v14))
        (k0_pay10 (k0_pay1 v4) (k0_pay4 v0 v2 v6) (k0_pay6 v0 v2 v4 v6 v14) (k0_pay8 v0 v2 v4 v6 v14))
        (k0_pay12 (F := F))
      = (tileStep (k0_pay4 v0 v2 v6) (k0_pay1 v4))^[6] v14 := rfl

end AnyFormat

/-! ## At the ideal values -/

/-- The named constant is 1 − dt. -/
theorem one_minus_dt : Named.named (F := Ideal) κ "one_minus_dt" (φ := .f32) 0x3F666666#32
    = ((120795955 / 134217728 : ℝ) : EReal) :=
  IdealRules.named_const.ideal_named_scalar _ _ _ _ rfl

variable (x : Fin 8192 → Fin 512 → ℝ) (w : Fin 1024 → Fin 512 → ℝ) (b : Fin 512 → ℝ)

/-- One step of a half tile whose rows are rows ρ p of a real state s is the cell's step of s on those rows. -/
theorem tileStep_apply (ρ : Fin 512 → Fin 8192) (s : Fin 8192 → Fin 512 → ℝ)
    (XW : FVec Ideal S512x512 .f32) (WR : FVec Ideal S512x512 .bf16) (S : FVec Ideal S512x512 .f32)
    (hXW : ∀ p q, XW (ix2 p q) = ((drive x w b (ρ p) q : ℝ) : EReal))
    (hWR : ∀ k q, WR (ix2 k q) = ((w (hi k) q : ℝ) : EReal))
    (hS : ∀ p q, S (ix2 p q) = ((s (ρ p) q : ℝ) : EReal)) (p q : Fin 512) :
    tileStep XW WR S (ix2 p q) = ((cell x w b s (ρ p) q : ℝ) : EReal) := by
  have hm : matmul dot_S512x512_S512x512_S512x512_1_0_0_1_n_n none
        (truncf .bf16 S bitsLt_bf16_f32 : FVec Ideal S512x512 .bf16) WR
        (constant (F := Ideal) S512x512 .f32 0x00000000#32) (ix2 p q)
      = ∑ k : Fin 512, (truncf .bf16 S bitsLt_bf16_f32 : FVec Ideal S512x512 .bf16) (ix2 p k) * WR (ix2 k q) :=
    Cert.Lib.ContractPlain.matmulZero_apply (M := 512) (K := 512) (N := 512) _ rfl none _ WR p q
  have e : tileStep XW WR S (ix2 p q)
      = Named.named (F := Ideal) κ "one_minus_dt" (φ := .f32) 0x3F666666#32 * S (ix2 p q)
        + Ideal.ofBits .f32 0x3DCCCCCD#32 * Ideal.tanh (XW (ix2 p q)
          + matmul dot_S512x512_S512x512_S512x512_1_0_0_1_n_n none
              (truncf .bf16 S bitsLt_bf16_f32 : FVec Ideal S512x512 .bf16) WR
              (constant (F := Ideal) S512x512 .f32 0x00000000#32) (ix2 p q)) := rfl
  rw [e, hm, one_minus_dt, ofBits_dt, hXW, hS]
  simp only [truncf_apply, hS, hWR]
  exact tiled_coe _ _ _ _

/-- n steps of a half tile are n steps of the cell on its rows. -/
theorem tileIter_apply (ρ : Fin 512 → Fin 8192)
    (XW : FVec Ideal S512x512 .f32) (WR : FVec Ideal S512x512 .bf16)
    (hXW : ∀ p q, XW (ix2 p q) = ((drive x w b (ρ p) q : ℝ) : EReal))
    (hWR : ∀ k q, WR (ix2 k q) = ((w (hi k) q : ℝ) : EReal)) :
    ∀ (n : Nat) (s : Fin 8192 → Fin 512 → ℝ) (S : FVec Ideal S512x512 .f32)
      (_ : ∀ p q, S (ix2 p q) = ((s (ρ p) q : ℝ) : EReal)) (p q : Fin 512),
      ((tileStep XW WR)^[n] S) (ix2 p q) = ((((cell x w b)^[n] s) (ρ p) q : ℝ) : EReal)
  | 0, s, S, hS, p, q => hS p q
  | n + 1, s, S, hS, p, q => by
    rw [Function.iterate_succ_apply', Function.iterate_succ_apply']
    exact tileStep_apply x w b ρ _ XW WR _ hXW hWR (tileIter_apply ρ XW WR hXW hWR n s S hS) p q

/-! ## The input projection -/

/-- The tile's input projection at an entry: the tile's row of x against a column of the upper half of the
    weights, plus the bias. -/
theorem pay2_apply (ρ : Fin 1024 → Fin 8192)
    (X0 : FVec Ideal S1024x512 .f32) (W2 : FVec Ideal S512x512 .bf16) (B4 : FVec Ideal S1x512 .f32)
    (hX0 : ∀ P k, X0 (ix2 P k) = ((x (ρ P) k : ℝ) : EReal))
    (hW2 : ∀ k q, W2 (ix2 k q) = ((w (lo k) q : ℝ) : EReal))
    (hB4 : ∀ q, B4 (ix2 (0 : Fin 1) q) = ((b q : ℝ) : EReal)) (P : Fin 1024) (q : Fin 512) :
    k0_pay2 (F := Ideal) X0 W2 B4 (ix2 P q) = ((drive x w b (ρ P) q : ℝ) : EReal) := by
  have e : k0_pay2 (F := Ideal) X0 W2 B4 (ix2 P q)
      = matmul dot_S1024x512_S512x512_S1024x512_1_0_0_1_n_n none
            (truncf .bf16 X0 bitsLt_bf16_f32 : FVec Ideal S1024x512 .bf16)
            (shapeCast S512x512 W2 shapeCasts_S512x512_S512x512)
            (constant (F := Ideal) S1024x512 .f32 0x00000000#32) (ix2 P q)
        + broadcastTo S1024x512 (shapeCast S1x512 B4 shapeCasts_S1x512_S1x512) broadcasts_S1x512_S1024x512 (ix2 P q) := rfl
  have hm : matmul dot_S1024x512_S512x512_S1024x512_1_0_0_1_n_n none
        (truncf .bf16 X0 bitsLt_bf16_f32 : FVec Ideal S1024x512 .bf16) W2
        (constant (F := Ideal) S1024x512 .f32 0x00000000#32) (ix2 P q)
      = ∑ k : Fin 512, (truncf .bf16 X0 bitsLt_bf16_f32 : FVec Ideal S1024x512 .bf16) (ix2 P k) * W2 (ix2 k q) :=
    Cert.Lib.ContractPlain.matmulZero_apply (M := 1024) (K := 512) (N := 512) _ rfl none _ W2 P q
  rw [e, shapeCast_self, shapeCast_self, hm, broadcastTo_1b_ab_apply, hB4]
  simp only [truncf_apply, hX0, hW2]
  rw [coe_dot, ← EReal.coe_add]
  rfl

theorem pay3_apply (ρ : Fin 1024 → Fin 8192)
    (X0 : FVec Ideal S1024x512 .f32) (W2 : FVec Ideal S512x512 .bf16) (B4 : FVec Ideal S1x512 .f32)
    (hX0 : ∀ P k, X0 (ix2 P k) = ((x (ρ P) k : ℝ) : EReal))
    (hW2 : ∀ k q, W2 (ix2 k q) = ((w (lo k) q : ℝ) : EReal))
    (hB4 : ∀ q, B4 (ix2 (0 : Fin 1) q) = ((b q : ℝ) : EReal)) (p q : Fin 512) :
    k0_pay3 (F := Ideal) X0 W2 B4 (ix2 p q) = ((drive x w b (ρ (rowA p)) q : ℝ) : EReal) := by
  have e : k0_pay3 (F := Ideal) X0 W2 B4 (ix2 p q)
      = extractStridedSlice S512x512 ![0, 0] (k0_pay2 (F := Ideal) X0 W2 B4) slices_S1024x512_o0_0_S512x512 (ix2 p q) := rfl
  rw [e]
  refine (slice2_axis0_apply 0 _ _ p q (rowA p) (by show p.val = 0 + p.val; omega)).trans ?_
  exact pay2_apply x w b ρ X0 W2 B4 hX0 hW2 hB4 (rowA p) q

theorem pay4_apply (ρ : Fin 1024 → Fin 8192)
    (X0 : FVec Ideal S1024x512 .f32) (W2 : FVec Ideal S512x512 .bf16) (B4 : FVec Ideal S1x512 .f32)
    (hX0 : ∀ P k, X0 (ix2 P k) = ((x (ρ P) k : ℝ) : EReal))
    (hW2 : ∀ k q, W2 (ix2 k q) = ((w (lo k) q : ℝ) : EReal))
    (hB4 : ∀ q, B4 (ix2 (0 : Fin 1) q) = ((b q : ℝ) : EReal)) (p q : Fin 512) :
    k0_pay4 (F := Ideal) X0 W2 B4 (ix2 p q) = ((drive x w b (ρ (rowB p)) q : ℝ) : EReal) := by
  have e : k0_pay4 (F := Ideal) X0 W2 B4 (ix2 p q)
      = extractStridedSlice S512x512 ![512, 0] (k0_pay2 (F := Ideal) X0 W2 B4) slices_S1024x512_o512_0_S512x512 (ix2 p q) := rfl
  rw [e]
  refine (slice2_axis0_apply 512 _ _ p q (rowB p) (by show 512 + p.val = 512 + p.val; rfl)).trans ?_
  exact pay2_apply x w b ρ X0 W2 B4 hX0 hW2 hB4 (rowB p) q

/-! ## The two stores as one tile -/

/-- Two half tiles stored to the upper and the lower 512 rows of a tile, read at a row: the upper half's payload
    on rows below 512, the lower half's from 512 on — stated for payloads that are the halves of ONE function
    of the tile's row. -/
theorem canon_halves (A B : FVec Ideal S512x512 .f32) (Hf : Fin 1024 → Fin 512 → EReal)
    (hA : ∀ p q, A (ix2 p q) = Hf (rowA p) q) (hB : ∀ p q, B (ix2 p q) = Hf (rowB p) q) (y : S1024x512.Idx) :
    View.canon ([⟨r0_4, B⟩, ⟨r0_3, A⟩] : List (View.Piece (Elt Ideal) S1024x512 .f32)) y
      = Hf ⟨(y 0).val, idx2_lt0 y⟩ ⟨(y 1).val, idx2_lt1 y⟩ := by
  refine View.canon_apply_of_pieces (Val := Elt Ideal) (S := S1024x512) (e := .f32) (fun y : S1024x512.Idx => Hf ⟨(y 0).val, idx2_lt0 y⟩ ⟨(y 1).val, idx2_lt1 y⟩)
    _ ?_ y (cover0_5 (F := Ideal) _ _ y)
  intro pc hpc
  rcases List.mem_cons.mp hpc with rfl | hpc
  · intro z
    obtain ⟨p, q, rfl⟩ : ∃ (p : Fin 512) (q : Fin 512), z = ix2 p q := ⟨z 0, z 1, eq_ix2 z⟩
    refine (hB p q).trans ?_
    exact congrArg₂ Hf (Fin.ext (by show 512 + p.val = 512 + 1 * p.val; omega))
      (Fin.ext (by show q.val = 0 + 1 * q.val; omega))
  · rcases List.mem_cons.mp hpc with rfl | hpc
    · intro z
      obtain ⟨p, q, rfl⟩ : ∃ (p : Fin 512) (q : Fin 512), z = ix2 p q := ⟨z 0, z 1, eq_ix2 z⟩
      refine (hA p q).trans ?_
      exact congrArg₂ Hf (Fin.ext (by show p.val = 0 + 1 * p.val; omega))
        (Fin.ext (by show q.val = 0 + 1 * q.val; omega))
    · exact absurd hpc (List.not_mem_nil)

/-- THE TILE: if the tile's rows are rows ρ P of real arrays (input x, state s) and its weight and bias blocks
    are the halves of w and b, the stored tile holds six steps of the cell on those rows. -/
theorem out_tile (ρ : Fin 1024 → Fin 8192) (s : Fin 8192 → Fin 512 → ℝ)
    (X0 X1 : FVec Ideal S1024x512 .f32) (W2 W3 : FVec Ideal S512x512 .bf16) (B4 : FVec Ideal S1x512 .f32)
    (hX0 : ∀ P k, X0 (ix2 P k) = ((x (ρ P) k : ℝ) : EReal))
    (hX1 : ∀ P q, X1 (ix2 P q) = ((s (ρ P) q : ℝ) : EReal))
    (hW2 : ∀ k q, W2 (ix2 k q) = ((w (lo k) q : ℝ) : EReal))
    (hW3 : ∀ k q, W3 (ix2 k q) = ((w (hi k) q : ℝ) : EReal))
    (hB4 : ∀ q, B4 (ix2 (0 : Fin 1) q) = ((b q : ℝ) : EReal)) (y : S1024x512.Idx) :
    out0_5 (F := Ideal) X0 X1 W2 W3 B4 y
      = ((((cell x w b)^[6] s) (ρ ⟨(y 0).val, idx2_lt0 y⟩) ⟨(y 1).val, idx2_lt1 y⟩ : ℝ) : EReal) := by
  have hz : (![0, 0] : Fin 2 → Nat) = fun _ => 0 := funext fun a => by fin_cases a <;> rfl
  have l0 : View.ld (Val := Elt Ideal) (e' := .f32) X0 r0_0 = X0 := View.ld_unit_zero (Val := Elt Ideal) (e := .f32) (S := S1024x512) hz _ X0
  have l2 : View.ld (Val := Elt Ideal) (e' := .bf16) W2 r0_1 = W2 := View.ld_unit_zero (Val := Elt Ideal) (e := .bf16) (S := S512x512) hz _ W2
  have l3 : View.ld (Val := Elt Ideal) (e' := .bf16) W3 r0_1 = W3 := View.ld_unit_zero (Val := Elt Ideal) (e := .bf16) (S := S512x512) hz _ W3
  have l4 : View.ld (Val := Elt Ideal) (e' := .f32) B4 r0_2 = B4 := View.ld_unit_zero (Val := Elt Ideal) (e := .f32) (S := S1x512) hz _ B4
  have hw1 : ∀ k q, k0_pay1 (F := Ideal) W3 (ix2 k q) = ((w (hi k) q : ℝ) : EReal) := fun k q => by
    have e : k0_pay1 (F := Ideal) W3 = shapeCast S512x512 W3 shapeCasts_S512x512_S512x512 := rfl
    rw [e, shapeCast_self]; exact hW3 k q
  have hA1 : ∀ p q, View.ld (Val := Elt Ideal) (e' := .f32) X1 r0_3 (ix2 p q) = ((s ((ρ ∘ rowA) p) q : ℝ) : EReal) := fun p q => by
    have e : View.ld (Val := Elt Ideal) (e' := .f32) X1 r0_3 (ix2 p q) = X1 (ix2 (rowA p) q) :=
      congrArg X1 (show (r0_3 : Rect S1024x512).emb (ix2 p q) = ix2 (rowA p) q from funext fun a => Fin.ext (by
        match a with
        | ⟨0, _⟩ => show 0 + 1 * p.val = p.val; omega
        | ⟨1, _⟩ => show 0 + 1 * q.val = q.val; omega))
    rw [e]; exact hX1 _ _
  have hB1 : ∀ p q, View.ld (Val := Elt Ideal) (e' := .f32) X1 r0_4 (ix2 p q) = ((s ((ρ ∘ rowB) p) q : ℝ) : EReal) := fun p q => by
    have e : View.ld (Val := Elt Ideal) (e' := .f32) X1 r0_4 (ix2 p q) = X1 (ix2 (rowB p) q) :=
      congrArg X1 (show (r0_4 : Rect S1024x512).emb (ix2 p q) = ix2 (rowB p) q from funext fun a => Fin.ext (by
        match a with
        | ⟨0, _⟩ => show 512 + 1 * p.val = 512 + p.val; omega
        | ⟨1, _⟩ => show 0 + 1 * q.val = q.val; omega))
    rw [e]; exact hX1 _ _
  unfold out0_5
  rw [l0, l2, l3, l4, storeA_eq, storeB_eq]
  refine canon_halves _ _ (fun P q => ((((cell x w b)^[6] s) (ρ P) q : ℝ) : EReal)) ?_ ?_ y
  · intro p q
    exact tileIter_apply x w b (ρ ∘ rowA) _ _ (pay3_apply x w b ρ X0 W2 B4 hX0 hW2 hB4) hw1 6 s _ hA1 p q
  · intro p q
    exact tileIter_apply x w b (ρ ∘ rowB) _ _ (pay4_apply x w b ρ X0 W2 B4 hX0 hW2 hB4) hw1 6 s _ hB1 p q

end Cert.KernelIdeal.Tile

end
-- ==== Proof.Whole.lean ====
/-
  The kernel's whole output array.

  The grid has eight points; point t stages rows 1024·t … 1024·t + 1023 of the input and of the state, the
  two halves of the weight matrix (cut and narrowed by the host before the launch; narrowing is the identity on
  ideal values), the bias as one row, and writes back rows 1024·t … of the output. By `Tile.out_tile` the tile
  written at point t holds six steps of the cell on exactly those rows, that is, block t of `Cell.result` of
  the argument arrays; the eight blocks tile the 8192 rows, so the output array ends as `Cell.result`.
-/
import proofs.«108348_j31550829756934_2_alg».proof.Proof.Gen.KernelIdeal.Value
import Idealize.ShloMosaic.Lib.StableHlo.Run
import proofs.«108348_j31550829756934_2_alg».proof.Proof.TileStep

set_option maxRecDepth 16384
set_option pp.maxSteps 5000
set_option pp.deepTerms false

noncomputable section

namespace Cert.KernelIdeal.Whole

open Cert.KernelIdeal Cert.KernelIdeal.Gen Cert.KernelIdeal.Value Idealize.ShloMosaic Idealize.ShloMosaic.TcCoe
open Idealize.SL.Sem Idealize.ShloMosaic.ValueIdx Cert.Cell Cert.KernelIdeal.Tile
open Idealize.ShloMosaic.Pipeline (Dat)

variable (m : (ℓ : Loc nD τ sig) → Buf (Elt Ideal) ℓ) (ρ : Dev nD → PrngReg)

/-! ## What the host prepared -/

/-- The upper half of the weights, as the region finds it. -/
theorem V_upper (c : Dev nD) : (V m c main_v1 : S512x512.Idx → EReal)
    = (truncf .bf16 (extractStridedSlice S512x512 ![0, 0] (m ((c : Thread nD τ).loc main_arg2))
        slices_S1024x512_S512x512_0_0 : FVec Ideal S512x512 .f32) bitsLt_bf16_f32 : FVec Ideal S512x512 .bf16) := by
  dsimp only [Gen.V, Gen.hostOps0]; after_results

/-- The lower half of the weights, as the region finds it. -/
theorem V_lower (c : Dev nD) : (V m c main_v3 : S512x512.Idx → EReal)
    = (truncf .bf16 (extractStridedSlice S512x512 ![512, 0] (m ((c : Thread nD τ).loc main_arg2))
        slices_S1024x512_S512x512_512_0 : FVec Ideal S512x512 .f32) bitsLt_bf16_f32 : FVec Ideal S512x512 .bf16) := by
  dsimp only [Gen.V, Gen.hostOps0]; after_results

/-- The bias as one row, as the region finds it. -/
theorem V_bias (c : Dev nD) : (V m c main_v4 : S1x512.Idx → EReal)
    = shapeCast S1x512 (m ((c : Thread nD τ).loc main_arg3)) shapeCasts_S512_S1x512 := by
  dsimp only [Gen.V, Gen.hostOps0]; after_results; rfl

/-! ## The windows' blocks -/

/-- The index maps over the grid: the input, the state and the output move one block of 1024 rows per point;
    the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 8 :=
  (by decide +kernel : ∀ t : Fin grid0.N, _)

/-- Row P of the tile of point t, as a row of the arrays. -/
def rowOf (t : Nat) (P : Fin 1024) : Fin 8192 := ⟨(1024 * t + P.val) % 8192, Nat.mod_lt _ (by norm_num)⟩

theorem blk_input (c : Dev nD) (t : Fin cfg0.N) (hX : Finite (m ((c : Thread nD τ).loc main_arg0)))
    (P : Fin 1024) (k : Fin 512) :
    (iblk m c 0 t : FVec Ideal S1024x512 .f32) (ix2 P k)
      = ((mat (m ((c : Thread nD τ).loc main_arg0)) (rowOf t.val P) k : ℝ) : EReal) := by
  obtain ⟨e00, e01, -, -, -, -, -, -, -, -, -, -, ht⟩ := idx_facts t
  have hidx : ((cfg0.win 0).blk t).view.emb (ix2 P k) = (ix2 (rowOf t.val P) k : S8192x512.Idx) := by
    funext a; apply Fin.ext
    match a with
    | ⟨0, _⟩ =>
      show win0_0.index t (0 : Fin 2) * 1024 + 1 * P.val = (1024 * t.val + P.val) % 8192
      have := P.isLt; omega
    | ⟨1, _⟩ => show win0_0.index t (1 : Fin 2) * 512 + 1 * k.val = k.val; omega
  show V m c main_arg0 (((cfg0.win 0).blk t).view.emb (ix2 P k)) = _
  rw [hidx, V_main_arg0]
  exact mat_coe hX _ _

theorem blk_state (c : Dev nD) (t : Fin cfg0.N) (hS : Finite (m ((c : Thread nD τ).loc main_arg1)))
    (P : Fin 1024) (k : Fin 512) :
    (iblk m c 1 t : FVec Ideal S1024x512 .f32) (ix2 P k)
      = ((mat (m ((c : Thread nD τ).loc main_arg1)) (rowOf t.val P) k : ℝ) : EReal) := by
  obtain ⟨-, -, e10, e11, -, -, -, -, -, -, -, -, ht⟩ := idx_facts t
  have hidx : ((cfg0.win 1).blk t).view.emb (ix2 P k) = (ix2 (rowOf t.val P) k : S8192x512.Idx) := by
    funext a; apply Fin.ext
    match a with
    | ⟨0, _⟩ =>
      show win0_1.index t (0 : Fin 2) * 1024 + 1 * P.val = (1024 * t.val + P.val) % 8192
      have := P.isLt; omega
    | ⟨1, _⟩ => show win0_1.index t (1 : Fin 2) * 512 + 1 * k.val = k.val; omega
  show V m c main_arg1 (((cfg0.win 1).blk t).view.emb (ix2 P k)) = _
  rw [hidx, V_main_arg1]
  exact mat_coe hS _ _

theorem blk_upper (c : Dev nD) (t : Fin cfg0.N) (hW : Finite (m ((c : Thread nD τ).loc main_arg2)))
    (k q : Fin 512) :
    (iblk m c 2 t : FVec Ideal S512x512 .bf16) (ix2 k q)
      = ((mat (m ((c : Thread nD τ).loc main_arg2)) (lo k) q : ℝ) : EReal) := by
  obtain ⟨-, -, -, -, e20, e21, -⟩ := idx_facts t
  have hidx : ((cfg0.win 2).blk t).view.emb (ix2 k q) = (ix2 k q : S512x512.Idx) := by
    funext a; apply Fin.ext
    match a with
    | ⟨0, _⟩ => show win0_2.index t (0 : Fin 2) * 512 + 1 * k.val = k.val; omega
    | ⟨1, _⟩ => show win0_2.index t (1 : Fin 2) * 512 + 1 * q.val = q.val; omega
  show V m c main_v1 (((cfg0.win 2).blk t).view.emb (ix2 k q)) = _
  rw [hidx, V_upper]
  show extractStridedSlice S512x512 ![0, 0] (m ((c : Thread nD τ).loc main_arg2)) slices_S1024x512_S512x512_0_0 (ix2 k q) = _
  refine (slice2_axis0_apply 0 _ _ k q (lo k) (by show k.val = 0 + k.val; omega)).trans ?_
  exact mat_coe hW _ _

theorem blk_lower (c : Dev nD) (t : Fin cfg0.N) (hW : Finite (m ((c : Thread nD τ).loc main_arg2)))
    (k q : Fin 512) :
    (iblk m c 3 t : FVec Ideal S512x512 .bf16) (ix2 k q)
      = ((mat (m ((c : Thread nD τ).loc main_arg2)) (hi k) q : ℝ) : EReal) := by
  obtain ⟨-, -, -, -, -, -, e30, e31, -⟩ := idx_facts t
  have hidx : ((cfg0.win 3).blk t).view.emb (ix2 k q) = (ix2 k q : S512x512.Idx) := by
    funext a; apply Fin.ext
    match a with
    | ⟨0, _⟩ => show win0_3.index t (0 : Fin 2) * 512 + 1 * k.val = k.val; omega
    | ⟨1, _⟩ => show win0_3.index t (1 : Fin 2) * 512 + 1 * q.val = q.val; omega
  show V m c main_v3 (((cfg0.win 3).blk t).view.emb (ix2 k q)) = _
  rw [hidx, V_lower]
  show extractStridedSlice S512x512 ![512, 0] (m ((c : Thread nD τ).loc main_arg2)) slices_S1024x512_S512x512_512_0 (ix2 k q) = _
  refine (slice2_axis0_apply 512 _ _ k q (hi k) rfl).trans ?_
  exact mat_coe hW _ _

theorem blk_bias (c : Dev nD) (t : Fin cfg0.N) (hB : Finite (m ((c : Thread nD τ).loc main_arg3)))
    (q : Fin 512) :
    (iblk m c 4 t : FVec Ideal S1x512 .f32) (ix2 (0 : Fin 1) q)
      = ((vec (m ((c : Thread nD τ).loc main_arg3)) q : ℝ) : EReal) := by
  obtain ⟨-, -, -, -, -, -, -, -, e40, e41, -⟩ := idx_facts t
  have hidx : ((cfg0.win 4).blk t).view.emb (ix2 (0 : Fin 1) q) = (ix2 (0 : Fin 1) q : S1x512.Idx) := by
    funext a; apply Fin.ext
    match a with
    | ⟨0, _⟩ => show win0_4.index t (0 : Fin 2) * 1 + 1 * 0 = 0; omega
    | ⟨1, _⟩ => show win0_4.index t (1 : Fin 2) * 512 + 1 * q.val = q.val; omega
  show V m c main_v4 (((cfg0.win 4).blk t).view.emb (ix2 (0 : Fin 1) q)) = _
  rw [hidx, V_bias]
  refine (shapeCast_a_1a_apply _ _ (0 : Fin 1) q).trans ?_
  exact vec_coe hB q

/-! ## From tiles to the array -/

/-- What point t writes back is block t of `Cell.result` of the argument arrays. -/
theorem flushed_eq (c : Dev nD) (t : Fin cfg0.N)
    (hX : Finite (m ((c : Thread nD τ).loc main_arg0))) (hS : Finite (m ((c : Thread nD τ).loc main_arg1)))
    (hW : Finite (m ((c : Thread nD τ).loc main_arg2))) (hB : Finite (m ((c : Thread nD τ).loc main_arg3))) :
    (dats m 0 c).flushed 5 t = ((cfg0.win 5).blk t).view.read (Elt Ideal)
      (result (m ((c : Thread nD τ).loc main_arg0)) (m ((c : Thread nD τ).loc main_arg1))
        (m ((c : Thread nD τ).loc main_arg2)) (m ((c : Thread nD τ).loc main_arg3))) := by
  rw [Value.flushed5]
  obtain ⟨-, -, -, -, -, -, -, -, -, -, e50, e51, ht⟩ := idx_facts t
  funext j
  show out0_5 (iblk m c 0 t) (iblk m c 1 t) (iblk m c 2 t) (iblk m c 3 t) (iblk m c 4 t) j
    = result (m ((c : Thread nD τ).loc main_arg0)) (m ((c : Thread nD τ).loc main_arg1))
        (m ((c : Thread nD τ).loc main_arg2)) (m ((c : Thread nD τ).loc main_arg3)) (((cfg0.win 5).blk t).view.emb j)
  refine (out_tile (mat (m ((c : Thread nD τ).loc main_arg0))) (mat (m ((c : Thread nD τ).loc main_arg2)))
    (vec (m ((c : Thread nD τ).loc main_arg3))) (rowOf t.val) (mat (m ((c : Thread nD τ).loc main_arg1)))
    _ _ _ _ _ (blk_input m c t hX) (blk_state m c t hS) (blk_upper m c t hW) (blk_lower m c t hW)
    (blk_bias m c t hB) j).trans ?_
  unfold result
  have hj0 : (j 0).val < 1024 := (j 0).isLt
  have h0 : rowOf t.val ⟨(j 0).val, hj0⟩
      = (⟨((((cfg0.win 5).blk t).view.emb j) 0).val, idx2_lt0 _⟩ : Fin 8192) := Fin.ext (by
    show (1024 * t.val + (j 0).val) % 8192 = win0_5.index t (0 : Fin 2) * 1024 + 1 * (j 0).val
    omega)
  have h1 : (⟨(j 1).val, (j 1).isLt⟩ : Fin 512)
      = (⟨((((cfg0.win 5).blk t).view.emb j) 1).val, idx2_lt1 _⟩ : Fin 512) := Fin.ext (by
    show (j 1).val = win0_5.index t (1 : Fin 2) * 512 + 1 * (j 1).val
    omega)
  exact congrArg₂ (fun a b => ((((cell (mat (m ((c : Thread nD τ).loc main_arg0))) (mat (m ((c : Thread nD τ).loc main_arg2)))
    (vec (m ((c : Thread nD τ).loc main_arg3))))^[6] (mat (m ((c : Thread nD τ).loc main_arg1)))) a b : ℝ) : EReal)) h0 h1

/-- An index of the array is in point t's block iff each coordinate is in the block's range on its axis. -/
theorem mem_blk (t : Fin cfg0.N) (i : S8192x512.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v5).slice (win0_5.rect t)).set ↔ _
  rw [View.set_slice_whole, Rect.mem_set_unit]
  exact Iff.rfl

/-- Every block of 1024 rows is some point's. -/
theorem idx_onto : ∀ q0 : Fin 8, ∃ t : Fin cfg0.N, win0_5.index t = ![q0.val, 0] :=
  (by decide +kernel : ∀ q0 : Fin 8, ∃ t : Fin grid0.N, win0_5.index t = ![q0.val, 0])

/-- The eight blocks cover the array: row r is in the block of point r / 1024. -/
theorem cover (i : S8192x512.Idx) :
    ∃ t : Fin cfg0.N, (cfg0.win 5).flush t = true ∧ i ∈ ((cfg0.win 5).blk t).view.set := by
  have hi0 : (i 0).val < 8192 := (i 0).isLt
  have hi1 : (i 1).val < 512 := (i 1).isLt
  obtain ⟨t, ht⟩ := idx_onto ⟨(i 0).val / 1024, by omega⟩
  have q0 : win0_5.index t (0 : Fin 2) = (i 0).val / 1024 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 512 ≤ (i 1).val ∧ (i 1).val < win0_5.index t (1 : Fin 2) * 512 + 512
    omega

/-- THE OUTPUT ARRAY after the run is `Cell.result` of the argument arrays. -/
theorem final (c : Dev nD)
    (hX : Finite (m ((c : Thread nD τ).loc main_arg0))) (hS : Finite (m ((c : Thread nD τ).loc main_arg1)))
    (hW : Finite (m ((c : Thread nD τ).loc main_arg2))) (hB : Finite (m ((c : Thread nD τ).loc main_arg3))) :
    (dats m 0 c).arrAt 5 cfg0.N
      = result (m ((c : Thread nD τ).loc main_arg0)) (m ((c : Thread nD τ).loc main_arg1))
          (m ((c : Thread nD τ).loc main_arg2)) (m ((c : Thread nD τ).loc main_arg3)) :=
  (dats m 0 c).arrAt_eq_of_cover 5 _ (fun t _ => flushed_eq m c t hX hS hW hB) cover

/-- THE KERNEL'S RUN on finite arguments: the result array is `Cell.result`, the arguments are unchanged. -/
theorem run (hfin : ∀ c : Dev nD, Finite (m ((c : Thread nD τ).loc main_arg0)) ∧ Finite (m ((c : Thread nD τ).loc main_arg1))
      ∧ Finite (m ((c : Thread nD τ).loc main_arg2)) ∧ Finite (m ((c : Thread nD τ).loc main_arg3))) :
    θ_run defs (onTc (τ := τ) (main (F := Ideal))) ⟨m, fun _ => 0, ρ⟩ fun r => ∀ c : Dev nD,
      r.2.mem ((c : Thread nD τ).loc main_v5)
          = result (m ((c : Thread nD τ).loc main_arg0)) (m ((c : Thread nD τ).loc main_arg1))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans
      (final m c (hfin c).1 (hfin c).2.1 (hfin c).2.2.1 (hfin c).2.2.2), (h c).2⟩)
    (Value.run_blocks m ρ)

end Cert.KernelIdeal.Whole

end
-- ==== Proof.RefRun.lean ====
/-
  The reference program's run, read as six Euler steps.

  The reference's host program is a straight line of ninety operations: six times the same fifteen
  (concatenate the input with the state, multiply by the weights, add the broadcast bias, take the hyperbolic
  tangent, negate the state and divide it by the constant one, add, scale by dt, add to the state), each time
  from the state the previous fifteen left. Read fifteen at a time from ANY contents of the buffers, one group
  leaves in its result buffer one Euler step (`eulerStep`) of the state it started from and leaves the four
  argument buffers alone; composing the six groups gives the six-fold iterate.
-/
import proofs.«108348_j31550829756934_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem
open Idealize.ShloMosaic.StableHlo

variable {F : FTy → Type} [FloatOps F]

/-- One Euler step of the state s, as the reference's operations compose. -/
def eulerStep (x : FVec F S8192x512 .f32) (W : FVec F S1024x512 .f32) (b : FVec F S512 .f32)
    (s : FVec F S8192x512 .f32) : FVec F S8192x512 .f32 :=
  addf s (mulf (broadcastInDim S8192x512 ![] bcast_S_S8192x512 (constant S_ .f32 0x3DCCCCCD#32))
    (addf (Host.divf (Host.negf s) (broadcastInDim S8192x512 ![] bcast_S_S8192x512 (constant S_ .f32 0x3F800000#32)))
      (Host.tanh (addf
        (Host.dotGeneral dot_S8192x1024_S1024x512_S8192x512_1_0_0_1_n_n none
          (concatenate S8192x1024 1 [⟨S8192x512, x⟩, ⟨S8192x512, s⟩] concatenates_S8192x512_S8192x512_S8192x1024_d1) W)
        (broadcastInDim S8192x512 ![0, 1] bcast_S1x512_S8192x512_0_1 (broadcastInDim S1x512 ![1] bcast_S512_S1x512_1 b))))))

/-! ## The operations -/

/-- @main's ninety operations, in order. -/
abbrev ops : List (HloOp τ sig (Elt F)) :=
  [ binary main_arg0 main_arg1 main_v0 ((fun a b => concatenate S8192x1024 1 [⟨S8192x512, a⟩, ⟨S8192x512, b⟩] concatenates_S8192x512_S8192x512_S8192x1024_d1) : (⟨S8192x512, .f32⟩ : BufTy).Contents (Elt F) → (⟨S8192x512, .f32⟩ : BufTy).Contents (Elt F) → (⟨S8192x1024, .f32⟩ : BufTy).Contents (Elt F)),
    binary main_v0 main_arg2 main_v1 ((fun l r => Host.dotGeneral dot_S8192x1024_S1024x512_S8192x512_1_0_0_1_n_n none l r) : (⟨S8192x1024, .f32⟩ : BufTy).Contents (Elt F) → (⟨S1024x512, .f32⟩ : BufTy).Contents (Elt F) → (⟨S8192x512, .f32⟩ : BufTy).Contents (Elt F)),
    unary main_arg3 main_v2 (broadcastInDim S1x512 ![1] bcast_S512_S1x512_1 : (⟨S512, .f32⟩ : BufTy).Contents (Elt F) → (⟨S1x512, .f32⟩ : BufTy).Contents (Elt F)),
    unary main_v2 main_v3 (broadcastInDim S8192x512 ![0, 1] bcast_S1x512_S8192x512_0_1 : (⟨S1x512, .f32⟩ : BufTy).Contents (Elt F) → (⟨S8192x512, .f32⟩ : BufTy).Contents (Elt F)),
    binary main_v1 main_v3 main_v4 (addf : (⟨S8192x512, .f32⟩ : BufTy).Contents (Elt F) → (⟨S8192x512, .f32⟩ : BufTy).Contents (Elt F) → (⟨S8192x512, .f32⟩ : BufTy).Contents (Elt F)),
    unary main_v4 main_v5 (Host.tanh : (⟨S8192x512, .f32⟩ : BufTy).Contents (Elt F) → (⟨S8192x512, .f32⟩ : BufTy).Contents (Elt F)),
    unary main_arg1 main_v6 (Host.negf : (⟨S8192x512, .f32⟩ : BufTy).Contents (Elt F) → (⟨S8192x512, .f32⟩ : BufTy).Contents (Elt F)),
    nullary main_cst (constant S_ .f32 0x3F800000#32),
    unary main_cst main_v7 (broadcastInDim S8192x512 ![] bcast_S_S8192x512 : (⟨S_, .f32⟩ : BufTy).Contents (Elt F) → (⟨S8192x512, .f32⟩ : BufTy).Contents (Elt F)),
    binary main_v6 main_v7 main_v8 (Host.divf : (⟨S8192x512, .f32⟩ : BufTy).Contents (Elt F) → (⟨S8192x512, .f32⟩ : BufTy).Contents (Elt F) → (⟨S8192x512, .f32⟩ : BufTy).Contents (Elt F)),
    binary main_v8 main_v5 main_v9 (addf : (⟨S8192x512, .f32⟩ : BufTy).Contents (Elt F) → (⟨S8192x512, .f32⟩ : BufTy).Contents (Elt F) → (⟨S8192x512, .f32⟩ : BufTy).Contents (Elt F)),
    nullary main_cst_0 (constant S_ .f32 0x3DCCCCCD#32),
    unary main_cst_0 main_v10 (broadcastInDim S8192x512 ![] bcast_S_S8192x512 : (⟨S_, .f32⟩ : BufTy).Contents (Elt F) → (⟨S8192x512, .f32⟩ : BufTy).Contents (Elt F)),
    binary main_v10 main_v9 main_v11 (mulf : (⟨S8192x512, .f32⟩ : BufTy).Contents (Elt F) → (⟨S8192x512, .f32⟩ : BufTy).Contents (Elt F) → (⟨S8192x512, .f32⟩ : BufTy).Contents (Elt F)),
    binary main_arg1 main_v11 main_v12 (addf : (⟨S8192x512, .f32⟩ : BufTy).Contents (Elt F) → (⟨S8192x512, .f32⟩ : BufTy).Contents (Elt F) → (⟨S8192x512, .f32⟩ : BufTy).Contents (Elt F)),
    binary main_arg0 main_v12 main_v13 ((fun a b => concatenate S8192x1024 1 [⟨S8192x512, a⟩, ⟨S8192x512, b⟩] concatenates_S8192x512_S8192x512_S8192x1024_d1) : (⟨S8192x512, .f32⟩ : BufTy).Contents (Elt F) → (⟨S8192x512, .f32⟩ : BufTy).Contents (Elt F) → (⟨S8192x1024, .f32⟩ : BufTy).Contents (Elt F)),
    binary main_v13 main_arg2 main_v14 ((fun l r => Host.dotGeneral dot_S8192x1024_S1024x512_S8192x512_1_0_0_1_n_n none l r) : (⟨S8192x1024, .f32⟩ : BufTy).Contents (Elt F) → (⟨S1024x512, .f32⟩ : BufTy).Contents (Elt F) → (⟨S8192x512, .f32⟩ : BufTy).Contents (Elt F)),
    unary main_arg3 main_v15 (broadcastInDim S1x512 ![1] bcast_S512_S1x512_1 : (⟨S512, .f32⟩ : BufTy).Contents (Elt F) → (⟨S1x512, .f32⟩ : BufTy).Contents (Elt F)),
    unary main_v15 main_v16 (broadcastInDim S8192x512 ![0, 1] bcast_S1x512_S8192x512_0_1 : (⟨S1x512, .f32⟩ : BufTy).Contents (Elt F) → (⟨S8192x512, .f32⟩ : BufTy).Contents (Elt F)),
    binary main_v14 main_v16 main_v17 (addf : (⟨S8192x512, .f32⟩ : BufTy).Contents (Elt F) → (⟨S8192x512, .f32⟩ : BufTy).Contents (Elt F) → (⟨S8192x512, .f32⟩ : BufTy).Contents (Elt F)),
    unary main_v17 main_v18 (Host.tanh : (⟨S8192x512, .f32⟩ : BufTy).Contents (Elt F) → (⟨S8192x512, .f32⟩ : BufTy).Contents (Elt F)),
    unary main_v12 main_v19 (Host.negf : (⟨S8192x512, .f32⟩ : BufTy).Contents (Elt F) → (⟨S8192x512, .f32⟩ : BufTy).Contents (Elt F)),
    nullary main_cst_1 (constant S_ .f32 0x3F800000#32),
    unary main_cst_1 main_v20 (broadcastInDim S8192x512 ![] bcast_S_S8192x512 : (⟨S_, .f32⟩ : BufTy).Contents (Elt F) → (⟨S8192x512, .f32⟩ : BufTy).Contents (Elt F)),
    binary main_v19 main_v20 main_v21 (Host.divf : (⟨S8192x512, .f32⟩ : BufTy).Contents (Elt F) → (⟨S8192x512, .f32⟩ : BufTy).Contents (Elt F) → (⟨S8192x512, .f32⟩ : BufTy).Contents (Elt F)),
    binary main_v21 main_v18 main_v22 (addf : (⟨S8192x512, .f32⟩ : BufTy).Contents (Elt F) → (⟨S8192x512, .f32⟩ : BufTy).Contents (Elt F) → (⟨S8192x512, .f32⟩ : BufTy).Contents (Elt F)),
    nullary main_cst_2 (constant S_ .f32 0x3DCCCCCD#32),
    unary main_cst_2 main_v23 (broadcastInDim S8192x512 ![] bcast_S_S8192x512 : (⟨S_, .f32⟩ : BufTy).Contents (Elt F) → (⟨S8192x512, .f32⟩ : BufTy).Contents (Elt F)),
    binary main_v23 main_v22 main_v24 (mulf : (⟨S8192x512, .f32⟩ : BufTy).Contents (Elt F) → (⟨S8192x512, .f32⟩ : BufTy).Contents (Elt F) → (⟨S8192x512, .f32⟩ : BufTy).Contents (Elt F)),
    binary main_v12 main_v24 main_v25 (addf : (⟨S8192x512, .f32⟩ : BufTy).Contents (Elt F) → (⟨S8192x512, .f32⟩ : BufTy).Contents (Elt F) → (⟨S8192x512, .f32⟩ : BufTy).Contents (Elt F)),
    binary main_arg0 main_v25 main_v26 ((fun a b => concatenate S8192x1024 1 [⟨S8192x512, a⟩, ⟨S8192x512, b⟩] concatenates_S8192x512_S8192x512_S8192x1024_d1) : (⟨S8192x512, .f32⟩ : BufTy).Contents (Elt F) → (⟨S8192x512, .f32⟩ : BufTy).Contents (Elt F) → (⟨S8192x1024, .f32⟩ : BufTy).Contents (Elt F)),
    binary main_v26 main_arg2 main_v27 ((fun l r => Host.dotGeneral dot_S8192x1024_S1024x512_S8192x512_1_0_0_1_n_n none l r) : (⟨S8192x1024, .f32⟩ : BufTy).Contents (Elt F) → (⟨S1024x512, .f32⟩ : BufTy).Contents (Elt F) → (⟨S8192x512, .f32⟩ : BufTy).Contents (Elt F)),
    unary main_arg3 main_v28 (broadcastInDim S1x512 ![1] bcast_S512_S1x512_1 : (⟨S512, .f32⟩ : BufTy).Contents (Elt F) → (⟨S1x512, .f32⟩ : BufTy).Contents (Elt F)),
    unary main_v28 main_v29 (broadcastInDim S8192x512 ![0, 1] bcast_S1x512_S8192x512_0_1 : (⟨S1x512, .f32⟩ : BufTy).Contents (Elt F) → (⟨S8192x512, .f32⟩ : BufTy).Contents (Elt F)),
    binary main_v27 main_v29 main_v30 (addf : (⟨S8192x512, .f32⟩ : BufTy).Contents (Elt F) → (⟨S8192x512, .f32⟩ : BufTy).Contents (Elt F) → (⟨S8192x512, .f32⟩ : BufTy).Contents (Elt F)),
    unary main_v30 main_v31 (Host.tanh : (⟨S8192x512, .f32⟩ : BufTy).Contents (Elt F) → (⟨S8192x512, .f32⟩ : BufTy).Contents (Elt F)),
    unary main_v25 main_v32 (Host.negf : (⟨S8192x512, .f32⟩ : BufTy).Contents (Elt F) → (⟨S8192x512, .f32⟩ : BufTy).Contents (Elt F)),
    nullary main_cst_3 (constant S_ .f32 0x3F800000#32),
    unary main_cst_3 main_v33 (broadcastInDim S8192x512 ![] bcast_S_S8192x512 : (⟨S_, .f32⟩ : BufTy).Contents (Elt F) → (⟨S8192x512, .f32⟩ : BufTy).Contents (Elt F)),
    binary main_v32 main_v33 main_v34 (Host.divf : (⟨S8192x512, .f32⟩ : BufTy).Contents (Elt F) → (⟨S8192x512, .f32⟩ : BufTy).Contents (Elt F) → (⟨S8192x512, .f32⟩ : BufTy).Contents (Elt F)),
    binary main_v34 main_v31 main_v35 (addf : (⟨S8192x512, .f32⟩ : BufTy).Contents (Elt F) → (⟨S8192x512, .f32⟩ : BufTy).Contents (Elt F) → (⟨S8192x512, .f32⟩ : BufTy).Contents (Elt F)),
    nullary main_cst_4 (constant S_ .f32 0x3DCCCCCD#32),
    unary main_cst_4 main_v36 (broadcastInDim S8192x512 ![] bcast_S_S8192x512 : (⟨S_, .f32⟩ : BufTy).Contents (Elt F) → (⟨S8192x512, .f32⟩ : BufTy).Contents (Elt F)),
    binary main_v36 main_v35 main_v37 (mulf : (⟨S8192x512, .f32⟩ : BufTy).Contents (Elt F) → (⟨S8192x512, .f32⟩ : BufTy).Contents (Elt F) → (⟨S8192x512, .f32⟩ : BufTy).Contents (Elt F)),
    binary main_v25 main_v37 main_v38 (addf : (⟨S8192x512, .f32⟩ : BufTy).Contents (Elt F) → (⟨S8192x512, .f32⟩ : BufTy).Contents (Elt F) → (⟨S8192x512, .f32⟩ : BufTy).Contents (Elt F)),
    binary main_arg0 main_v38 main_v39 ((fun a b => concatenate S8192x1024 1 [⟨S8192x512, a⟩, ⟨S8192x512, b⟩] concatenates_S8192x512_S8192x512_S8192x1024_d1) : (⟨S8192x512, .f32⟩ : BufTy).Contents (Elt F) → (⟨S8192x512, .f32⟩ : BufTy).Contents (Elt F) → (⟨S8192x1024, .f32⟩ : BufTy).Contents (Elt F)),
    binary main_v39 main_arg2 main_v40 ((fun l r => Host.dotGeneral dot_S8192x1024_S1024x512_S8192x512_1_0_0_1_n_n none l r) : (⟨S8192x1024, .f32⟩ : BufTy).Contents (Elt F) → (⟨S1024x512, .f32⟩ : BufTy).Contents (Elt F) → (⟨S8192x512, .f32⟩ : BufTy).Contents (Elt F)),
    unary main_arg3 main_v41 (broadcastInDim S1x512 ![1] bcast_S512_S1x512_1 : (⟨S512, .f32⟩ : BufTy).Contents (Elt F) → (⟨S1x512, .f32⟩ : BufTy).Contents (Elt F)),
    unary main_v41 main_v42 (broadcastInDim S8192x512 ![0, 1] bcast_S1x512_S8192x512_0_1 : (⟨S1x512, .f32⟩ : BufTy).Contents (Elt F) → (⟨S8192x512, .f32⟩ : BufTy).Contents (Elt F)),
    binary main_v40 main_v42 main_v43 (addf : (⟨S8192x512, .f32⟩ : BufTy).Contents (Elt F) → (⟨S8192x512, .f32⟩ : BufTy).Contents (Elt F) → (⟨S8192x512, .f32⟩ : BufTy).Contents (Elt F)),
    unary main_v43 main_v44 (Host.tanh : (⟨S8192x512, .f32⟩ : BufTy).Contents (Elt F) → (⟨S8192x512, .f32⟩ : BufTy).Contents (Elt F)),
    unary main_v38 main_v45 (Host.negf : (⟨S8192x512, .f32⟩ : BufTy).Contents (Elt F) → (⟨S8192x512, .f32⟩ : BufTy).Contents (Elt F)),
    nullary main_cst_5 (constant S_ .f32 0x3F800000#32),
    unary main_cst_5 main_v46 (broadcastInDim S8192x512 ![] bcast_S_S8192x512 : (⟨S_, .f32⟩ : BufTy).Contents (Elt F) → (⟨S8192x512, .f32⟩ : BufTy).Contents (Elt F)),
    binary main_v45 main_v46 main_v47 (Host.divf : (⟨S8192x512, .f32⟩ : BufTy).Contents (Elt F) → (⟨S8192x512, .f32⟩ : BufTy).Contents (Elt F) → (⟨S8192x512, .f32⟩ : BufTy).Contents (Elt F)),
    binary main_v47 main_v44 main_v48 (addf : (⟨S8192x512, .f32⟩ : BufTy).Contents (Elt F) → (⟨S8192x512, .f32⟩ : BufTy).Contents (Elt F) → (⟨S8192x512, .f32⟩ : BufTy).Contents (Elt F)),
    nullary main_cst_6 (constant S_ .f32 0x3DCCCCCD#32),
    unary main_cst_6 main_v49 (broadcastInDim S8192x512 ![] bcast_S_S8192x512 : (⟨S_, .f32⟩ : BufTy).Contents (Elt F) → (⟨S8192x512, .f32⟩ : BufTy).Contents (Elt F)),
    binary main_v49 main_v48 main_v50 (mulf : (⟨S8192x512, .f32⟩ : BufTy).Contents (Elt F) → (⟨S8192x512, .f32⟩ : BufTy).Contents (Elt F) → (⟨S8192x512, .f32⟩ : BufTy).Contents (Elt F)),
    binary main_v38 main_v50 main_v51 (addf : (⟨S8192x512, .f32⟩ : BufTy).Contents (Elt F) → (⟨S8192x512, .f32⟩ : BufTy).Contents (Elt F) → (⟨S8192x512, .f32⟩ : BufTy).Contents (Elt F)),
    binary main_arg0 main_v51 main_v52 ((fun a b => concatenate S8192x1024 1 [⟨S8192x512, a⟩, ⟨S8192x512, b⟩] concatenates_S8192x512_S8192x512_S8192x1024_d1) : (⟨S8192x512, .f32⟩ : BufTy).Contents (Elt F) → (⟨S8192x512, .f32⟩ : BufTy).Contents (Elt F) → (⟨S8192x1024, .f32⟩ : BufTy).Contents (Elt F)),
    binary main_v52 main_arg2 main_v53 ((fun l r => Host.dotGeneral dot_S8192x1024_S1024x512_S8192x512_1_0_0_1_n_n none l r) : (⟨S8192x1024, .f32⟩ : BufTy).Contents (Elt F) → (⟨S1024x512, .f32⟩ : BufTy).Contents (Elt F) → (⟨S8192x512, .f32⟩ : BufTy).Contents (Elt F)),
    unary main_arg3 main_v54 (broadcastInDim S1x512 ![1] bcast_S512_S1x512_1 : (⟨S512, .f32⟩ : BufTy).Contents (Elt F) → (⟨S1x512, .f32⟩ : BufTy).Contents (Elt F)),
    unary main_v54 main_v55 (broadcastInDim S8192x512 ![0, 1] bcast_S1x512_S8192x512_0_1 : (⟨S1x512, .f32⟩ : BufTy).Contents (Elt F) → (⟨S8192x512, .f32⟩ : BufTy).Contents (Elt F)),
    binary main_v53 main_v55 main_v56 (addf : (⟨S8192x512, .f32⟩ : BufTy).Contents (Elt F) → (⟨S8192x512, .f32⟩ : BufTy).Contents (Elt F) → (⟨S8192x512, .f32⟩ : BufTy).Contents (Elt F)),
    unary main_v56 main_v57 (Host.tanh : (⟨S8192x512, .f32⟩ : BufTy).Contents (Elt F) → (⟨S8192x512, .f32⟩ : BufTy).Contents (Elt F)),
    unary main_v51 main_v58 (Host.negf : (⟨S8192x512, .f32⟩ : BufTy).Contents (Elt F) → (⟨S8192x512, .f32⟩ : BufTy).Contents (Elt F)),
    nullary main_cst_7 (constant S_ .f32 0x3F800000#32),
    unary main_cst_7 main_v59 (broadcastInDim S8192x512 ![] bcast_S_S8192x512 : (⟨S_, .f32⟩ : BufTy).Contents (Elt F) → (⟨S8192x512, .f32⟩ : BufTy).Contents (Elt F)),
    binary main_v58 main_v59 main_v60 (Host.divf : (⟨S8192x512, .f32⟩ : BufTy).Contents (Elt F) → (⟨S8192x512, .f32⟩ : BufTy).Contents (Elt F) → (⟨S8192x512, .f32⟩ : BufTy).Contents (Elt F)),
    binary main_v60 main_v57 main_v61 (addf : (⟨S8192x512, .f32⟩ : BufTy).Contents (Elt F) → (⟨S8192x512, .f32⟩ : BufTy).Contents (Elt F) → (⟨S8192x512, .f32⟩ : BufTy).Contents (Elt F)),
    nullary main_cst_8 (constant S_ .f32 0x3DCCCCCD#32),
    unary main_cst_8 main_v62 (broadcastInDim S8192x512 ![] bcast_S_S8192x512 : (⟨S_, .f32⟩ : BufTy).Contents (Elt F) → (⟨S8192x512, .f32⟩ : BufTy).Contents (Elt F)),
    binary main_v62 main_v61 main_v63 (mulf : (⟨S8192x512, .f32⟩ : BufTy).Contents (Elt F) → (⟨S8192x512, .f32⟩ : BufTy).Contents (Elt F) → (⟨S8192x512, .f32⟩ : BufTy).Contents (Elt F)),
    binary main_v51 main_v63 main_v64 (addf : (⟨S8192x512, .f32⟩ : BufTy).Contents (Elt F) → (⟨S8192x512, .f32⟩ : BufTy).Contents (Elt F) → (⟨S8192x512, .f32⟩ : BufTy).Contents (Elt F)),
    binary main_arg0 main_v64 main_v65 ((fun a b => concatenate S8192x1024 1 [⟨S8192x512, a⟩, ⟨S8192x512, b⟩] concatenates_S8192x512_S8192x512_S8192x1024_d1) : (⟨S8192x512, .f32⟩ : BufTy).Contents (Elt F) → (⟨S8192x512, .f32⟩ : BufTy).Contents (Elt F) → (⟨S8192x1024, .f32⟩ : BufTy).Contents (Elt F)),
    binary main_v65 main_arg2 main_v66 ((fun l r => Host.dotGeneral dot_S8192x1024_S1024x512_S8192x512_1_0_0_1_n_n none l r) : (⟨S8192x1024, .f32⟩ : BufTy).Contents (Elt F) → (⟨S1024x512, .f32⟩ : BufTy).Contents (Elt F) → (⟨S8192x512, .f32⟩ : BufTy).Contents (Elt F)),
    unary main_arg3 main_v67 (broadcastInDim S1x512 ![1] bcast_S512_S1x512_1 : (⟨S512, .f32⟩ : BufTy).Contents (Elt F) → (⟨S1x512, .f32⟩ : BufTy).Contents (Elt F)),
    unary main_v67 main_v68 (broadcastInDim S8192x512 ![0, 1] bcast_S1x512_S8192x512_0_1 : (⟨S1x512, .f32⟩ : BufTy).Contents (Elt F) → (⟨S8192x512, .f32⟩ : BufTy).Contents (Elt F)),
    binary main_v66 main_v68 main_v69 (addf : (⟨S8192x512, .f32⟩ : BufTy).Contents (Elt F) → (⟨S8192x512, .f32⟩ : BufTy).Contents (Elt F) → (⟨S8192x512, .f32⟩ : BufTy).Contents (Elt F)),
    unary main_v69 main_v70 (Host.tanh : (⟨S8192x512, .f32⟩ : BufTy).Contents (Elt F) → (⟨S8192x512, .f32⟩ : BufTy).Contents (Elt F)),
    unary main_v64 main_v71 (Host.negf : (⟨S8192x512, .f32⟩ : BufTy).Contents (Elt F) → (⟨S8192x512, .f32⟩ : BufTy).Contents (Elt F)),
    nullary main_cst_9 (constant S_ .f32 0x3F800000#32),
    unary main_cst_9 main_v72 (broadcastInDim S8192x512 ![] bcast_S_S8192x512 : (⟨S_, .f32⟩ : BufTy).Contents (Elt F) → (⟨S8192x512, .f32⟩ : BufTy).Contents (Elt F)),
    binary main_v71 main_v72 main_v73 (Host.divf : (⟨S8192x512, .f32⟩ : BufTy).Contents (Elt F) → (⟨S8192x512, .f32⟩ : BufTy).Contents (Elt F) → (⟨S8192x512, .f32⟩ : BufTy).Contents (Elt F)),
    binary main_v73 main_v70 main_v74 (addf : (⟨S8192x512, .f32⟩ : BufTy).Contents (Elt F) → (⟨S8192x512, .f32⟩ : BufTy).Contents (Elt F) → (⟨S8192x512, .f32⟩ : BufTy).Contents (Elt F)),
    nullary main_cst_10 (constant S_ .f32 0x3DCCCCCD#32),
    unary main_cst_10 main_v75 (broadcastInDim S8192x512 ![] bcast_S_S8192x512 : (⟨S_, .f32⟩ : BufTy).Contents (Elt F) → (⟨S8192x512, .f32⟩ : BufTy).Contents (Elt F)),
    binary main_v75 main_v74 main_v76 (mulf : (⟨S8192x512, .f32⟩ : BufTy).Contents (Elt F) → (⟨S8192x512, .f32⟩ : BufTy).Contents (Elt F) → (⟨S8192x512, .f32⟩ : BufTy).Contents (Elt F)),
    binary main_v64 main_v76 main_v77 (addf : (⟨S8192x512, .f32⟩ : BufTy).Contents (Elt F) → (⟨S8192x512, .f32⟩ : BufTy).Contents (Elt F) → (⟨S8192x512, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., binary_bufs_sub .., unary_bufs_sub .., unary_bufs_sub .., binary_bufs_sub .., unary_bufs_sub .., unary_bufs_sub .., nullary_bufs_sub .., unary_bufs_sub .., binary_bufs_sub .., binary_bufs_sub .., nullary_bufs_sub .., unary_bufs_sub .., binary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., binary_bufs_sub .., nullary_bufs_sub .., unary_bufs_sub .., binary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., binary_bufs_sub .., nullary_bufs_sub .., unary_bufs_sub .., binary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., binary_bufs_sub .., nullary_bufs_sub .., unary_bufs_sub .., binary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., binary_bufs_sub .., nullary_bufs_sub .., unary_bufs_sub .., binary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., binary_bufs_sub .., nullary_bufs_sub .., unary_bufs_sub .., binary_bufs_sub .., binary_bufs_sub ..⟩

/-- Step 1: the fifteen operations from the state in `main_arg1` to the state in `main_v12`. -/
def seg0 : List (HloOp τ sig (Elt F)) :=
  [ binary main_arg0 main_arg1 main_v0 ((fun a b => concatenate S8192x1024 1 [⟨S8192x512, a⟩, ⟨S8192x512, b⟩] concatenates_S8192x512_S8192x512_S8192x1024_d1) : (⟨S8192x512, .f32⟩ : BufTy).Contents (Elt F) → (⟨S8192x512, .f32⟩ : BufTy).Contents (Elt F) → (⟨S8192x1024, .f32⟩ : BufTy).Contents (Elt F)),
    binary main_v0 main_arg2 main_v1 ((fun l r => Host.dotGeneral dot_S8192x1024_S1024x512_S8192x512_1_0_0_1_n_n none l r) : (⟨S8192x1024, .f32⟩ : BufTy).Contents (Elt F) → (⟨S1024x512, .f32⟩ : BufTy).Contents (Elt F) → (⟨S8192x512, .f32⟩ : BufTy).Contents (Elt F)),
    unary main_arg3 main_v2 (broadcastInDim S1x512 ![1] bcast_S512_S1x512_1 : (⟨S512, .f32⟩ : BufTy).Contents (Elt F) → (⟨S1x512, .f32⟩ : BufTy).Contents (Elt F)),
    unary main_v2 main_v3 (broadcastInDim S8192x512 ![0, 1] bcast_S1x512_S8192x512_0_1 : (⟨S1x512, .f32⟩ : BufTy).Contents (Elt F) → (⟨S8192x512, .f32⟩ : BufTy).Contents (Elt F)),
    binary main_v1 main_v3 main_v4 (addf : (⟨S8192x512, .f32⟩ : BufTy).Contents (Elt F) → (⟨S8192x512, .f32⟩ : BufTy).Contents (Elt F) → (⟨S8192x512, .f32⟩ : BufTy).Contents (Elt F)),
    unary main_v4 main_v5 (Host.tanh : (⟨S8192x512, .f32⟩ : BufTy).Contents (Elt F) → (⟨S8192x512, .f32⟩ : BufTy).Contents (Elt F)),
    unary main_arg1 main_v6 (Host.negf : (⟨S8192x512, .f32⟩ : BufTy).Contents (Elt F) → (⟨S8192x512, .f32⟩ : BufTy).Contents (Elt F)),
    nullary main_cst (constant S_ .f32 0x3F800000#32),
    unary main_cst main_v7 (broadcastInDim S8192x512 ![] bcast_S_S8192x512 : (⟨S_, .f32⟩ : BufTy).Contents (Elt F) → (⟨S8192x512, .f32⟩ : BufTy).Contents (Elt F)),
    binary main_v6 main_v7 main_v8 (Host.divf : (⟨S8192x512, .f32⟩ : BufTy).Contents (Elt F) → (⟨S8192x512, .f32⟩ : BufTy).Contents (Elt F) → (⟨S8192x512, .f32⟩ : BufTy).Contents (Elt F)),
    binary main_v8 main_v5 main_v9 (addf : (⟨S8192x512, .f32⟩ : BufTy).Contents (Elt F) → (⟨S8192x512, .f32⟩ : BufTy).Contents (Elt F) → (⟨S8192x512, .f32⟩ : BufTy).Contents (Elt F)),
    nullary main_cst_0 (constant S_ .f32 0x3DCCCCCD#32),
    unary main_cst_0 main_v10 (broadcastInDim S8192x512 ![] bcast_S_S8192x512 : (⟨S_, .f32⟩ : BufTy).Contents (Elt F) → (⟨S8192x512, .f32⟩ : BufTy).Contents (Elt F)),
    binary main_v10 main_v9 main_v11 (mulf : (⟨S8192x512, .f32⟩ : BufTy).Contents (Elt F) → (⟨S8192x512, .f32⟩ : BufTy).Contents (Elt F) → (⟨S8192x512, .f32⟩ : BufTy).Contents (Elt F)),
    binary main_arg1 main_v11 main_v12 (addf : (⟨S8192x512, .f32⟩ : BufTy).Contents (Elt F) → (⟨S8192x512, .f32⟩ : BufTy).Contents (Elt F) → (⟨S8192x512, .f32⟩ : BufTy).Contents (Elt F)) ]

/-- Step 2: the fifteen operations from the state in `main_v12` to the state in `main_v25`. -/
def seg1 : List (HloOp τ sig (Elt F)) :=
  [ binary main_arg0 main_v12 main_v13 ((fun a b => concatenate S8192x1024 1 [⟨S8192x512, a⟩, ⟨S8192x512, b⟩] concatenates_S8192x512_S8192x512_S8192x1024_d1) : (⟨S8192x512, .f32⟩ : BufTy).Contents (Elt F) → (⟨S8192x512, .f32⟩ : BufTy).Contents (Elt F) → (⟨S8192x1024, .f32⟩ : BufTy).Contents (Elt F)),
    binary main_v13 main_arg2 main_v14 ((fun l r => Host.dotGeneral dot_S8192x1024_S1024x512_S8192x512_1_0_0_1_n_n none l r) : (⟨S8192x1024, .f32⟩ : BufTy).Contents (Elt F) → (⟨S1024x512, .f32⟩ : BufTy).Contents (Elt F) → (⟨S8192x512, .f32⟩ : BufTy).Contents (Elt F)),
    unary main_arg3 main_v15 (broadcastInDim S1x512 ![1] bcast_S512_S1x512_1 : (⟨S512, .f32⟩ : BufTy).Contents (Elt F) → (⟨S1x512, .f32⟩ : BufTy).Contents (Elt F)),
    unary main_v15 main_v16 (broadcastInDim S8192x512 ![0, 1] bcast_S1x512_S8192x512_0_1 : (⟨S1x512, .f32⟩ : BufTy).Contents (Elt F) → (⟨S8192x512, .f32⟩ : BufTy).Contents (Elt F)),
    binary main_v14 main_v16 main_v17 (addf : (⟨S8192x512, .f32⟩ : BufTy).Contents (Elt F) → (⟨S8192x512, .f32⟩ : BufTy).Contents (Elt F) → (⟨S8192x512, .f32⟩ : BufTy).Contents (Elt F)),
    unary main_v17 main_v18 (Host.tanh : (⟨S8192x512, .f32⟩ : BufTy).Contents (Elt F) → (⟨S8192x512, .f32⟩ : BufTy).Contents (Elt F)),
    unary main_v12 main_v19 (Host.negf : (⟨S8192x512, .f32⟩ : BufTy).Contents (Elt F) → (⟨S8192x512, .f32⟩ : BufTy).Contents (Elt F)),
    nullary main_cst_1 (constant S_ .f32 0x3F800000#32),
    unary main_cst_1 main_v20 (broadcastInDim S8192x512 ![] bcast_S_S8192x512 : (⟨S_, .f32⟩ : BufTy).Contents (Elt F) → (⟨S8192x512, .f32⟩ : BufTy).Contents (Elt F)),
    binary main_v19 main_v20 main_v21 (Host.divf : (⟨S8192x512, .f32⟩ : BufTy).Contents (Elt F) → (⟨S8192x512, .f32⟩ : BufTy).Contents (Elt F) → (⟨S8192x512, .f32⟩ : BufTy).Contents (Elt F)),
    binary main_v21 main_v18 main_v22 (addf : (⟨S8192x512, .f32⟩ : BufTy).Contents (Elt F) → (⟨S8192x512, .f32⟩ : BufTy).Contents (Elt F) → (⟨S8192x512, .f32⟩ : BufTy).Contents (Elt F)),
    nullary main_cst_2 (constant S_ .f32 0x3DCCCCCD#32),
    unary main_cst_2 main_v23 (broadcastInDim S8192x512 ![] bcast_S_S8192x512 : (⟨S_, .f32⟩ : BufTy).Contents (Elt F) → (⟨S8192x512, .f32⟩ : BufTy).Contents (Elt F)),
    binary main_v23 main_v22 main_v24 (mulf : (⟨S8192x512, .f32⟩ : BufTy).Contents (Elt F) → (⟨S8192x512, .f32⟩ : BufTy).Contents (Elt F) → (⟨S8192x512, .f32⟩ : BufTy).Contents (Elt F)),
    binary main_v12 main_v24 main_v25 (addf : (⟨S8192x512, .f32⟩ : BufTy).Contents (Elt F) → (⟨S8192x512, .f32⟩ : BufTy).Contents (Elt F) → (⟨S8192x512, .f32⟩ : BufTy).Contents (Elt F)) ]

/-- Step 3: the fifteen operations from the state in `main_v25` to the state in `main_v38`. -/
def seg2 : List (HloOp τ sig (Elt F)) :=
  [ binary main_arg0 main_v25 main_v26 ((fun a b => concatenate S8192x1024 1 [⟨S8192x512, a⟩, ⟨S8192x512, b⟩] concatenates_S8192x512_S8192x512_S8192x1024_d1) : (⟨S8192x512, .f32⟩ : BufTy).Contents (Elt F) → (⟨S8192x512, .f32⟩ : BufTy).Contents (Elt F) → (⟨S8192x1024, .f32⟩ : BufTy).Contents (Elt F)),
    binary main_v26 main_arg2 main_v27 ((fun l r => Host.dotGeneral dot_S8192x1024_S1024x512_S8192x512_1_0_0_1_n_n none l r) : (⟨S8192x1024, .f32⟩ : BufTy).Contents (Elt F) → (⟨S1024x512, .f32⟩ : BufTy).Contents (Elt F) → (⟨S8192x512, .f32⟩ : BufTy).Contents (Elt F)),
    unary main_arg3 main_v28 (broadcastInDim S1x512 ![1] bcast_S512_S1x512_1 : (⟨S512, .f32⟩ : BufTy).Contents (Elt F) → (⟨S1x512, .f32⟩ : BufTy).Contents (Elt F)),
    unary main_v28 main_v29 (broadcastInDim S8192x512 ![0, 1] bcast_S1x512_S8192x512_0_1 : (⟨S1x512, .f32⟩ : BufTy).Contents (Elt F) → (⟨S8192x512, .f32⟩ : BufTy).Contents (Elt F)),
    binary main_v27 main_v29 main_v30 (addf : (⟨S8192x512, .f32⟩ : BufTy).Contents (Elt F) → (⟨S8192x512, .f32⟩ : BufTy).Contents (Elt F) → (⟨S8192x512, .f32⟩ : BufTy).Contents (Elt F)),
    unary main_v30 main_v31 (Host.tanh : (⟨S8192x512, .f32⟩ : BufTy).Contents (Elt F) → (⟨S8192x512, .f32⟩ : BufTy).Contents (Elt F)),
    unary main_v25 main_v32 (Host.negf : (⟨S8192x512, .f32⟩ : BufTy).Contents (Elt F) → (⟨S8192x512, .f32⟩ : BufTy).Contents (Elt F)),
    nullary main_cst_3 (constant S_ .f32 0x3F800000#32),
    unary main_cst_3 main_v33 (broadcastInDim S8192x512 ![] bcast_S_S8192x512 : (⟨S_, .f32⟩ : BufTy).Contents (Elt F) → (⟨S8192x512, .f32⟩ : BufTy).Contents (Elt F)),
    binary main_v32 main_v33 main_v34 (Host.divf : (⟨S8192x512, .f32⟩ : BufTy).Contents (Elt F) → (⟨S8192x512, .f32⟩ : BufTy).Contents (Elt F) → (⟨S8192x512, .f32⟩ : BufTy).Contents (Elt F)),
    binary main_v34 main_v31 main_v35 (addf : (⟨S8192x512, .f32⟩ : BufTy).Contents (Elt F) → (⟨S8192x512, .f32⟩ : BufTy).Contents (Elt F) → (⟨S8192x512, .f32⟩ : BufTy).Contents (Elt F)),
    nullary main_cst_4 (constant S_ .f32 0x3DCCCCCD#32),
    unary main_cst_4 main_v36 (broadcastInDim S8192x512 ![] bcast_S_S8192x512 : (⟨S_, .f32⟩ : BufTy).Contents (Elt F) → (⟨S8192x512, .f32⟩ : BufTy).Contents (Elt F)),
    binary main_v36 main_v35 main_v37 (mulf : (⟨S8192x512, .f32⟩ : BufTy).Contents (Elt F) → (⟨S8192x512, .f32⟩ : BufTy).Contents (Elt F) → (⟨S8192x512, .f32⟩ : BufTy).Contents (Elt F)),
    binary main_v25 main_v37 main_v38 (addf : (⟨S8192x512, .f32⟩ : BufTy).Contents (Elt F) → (⟨S8192x512, .f32⟩ : BufTy).Contents (Elt F) → (⟨S8192x512, .f32⟩ : BufTy).Contents (Elt F)) ]

/-- Step 4: the fifteen operations from the state in `main_v38` to the state in `main_v51`. -/
def seg3 : List (HloOp τ sig (Elt F)) :=
  [ binary main_arg0 main_v38 main_v39 ((fun a b => concatenate S8192x1024 1 [⟨S8192x512, a⟩, ⟨S8192x512, b⟩] concatenates_S8192x512_S8192x512_S8192x1024_d1) : (⟨S8192x512, .f32⟩ : BufTy).Contents (Elt F) → (⟨S8192x512, .f32⟩ : BufTy).Contents (Elt F) → (⟨S8192x1024, .f32⟩ : BufTy).Contents (Elt F)),
    binary main_v39 main_arg2 main_v40 ((fun l r => Host.dotGeneral dot_S8192x1024_S1024x512_S8192x512_1_0_0_1_n_n none l r) : (⟨S8192x1024, .f32⟩ : BufTy).Contents (Elt F) → (⟨S1024x512, .f32⟩ : BufTy).Contents (Elt F) → (⟨S8192x512, .f32⟩ : BufTy).Contents (Elt F)),
    unary main_arg3 main_v41 (broadcastInDim S1x512 ![1] bcast_S512_S1x512_1 : (⟨S512, .f32⟩ : BufTy).Contents (Elt F) → (⟨S1x512, .f32⟩ : BufTy).Contents (Elt F)),
    unary main_v41 main_v42 (broadcastInDim S8192x512 ![0, 1] bcast_S1x512_S8192x512_0_1 : (⟨S1x512, .f32⟩ : BufTy).Contents (Elt F) → (⟨S8192x512, .f32⟩ : BufTy).Contents (Elt F)),
    binary main_v40 main_v42 main_v43 (addf : (⟨S8192x512, .f32⟩ : BufTy).Contents (Elt F) → (⟨S8192x512, .f32⟩ : BufTy).Contents (Elt F) → (⟨S8192x512, .f32⟩ : BufTy).Contents (Elt F)),
    unary main_v43 main_v44 (Host.tanh : (⟨S8192x512, .f32⟩ : BufTy).Contents (Elt F) → (⟨S8192x512, .f32⟩ : BufTy).Contents (Elt F)),
    unary main_v38 main_v45 (Host.negf : (⟨S8192x512, .f32⟩ : BufTy).Contents (Elt F) → (⟨S8192x512, .f32⟩ : BufTy).Contents (Elt F)),
    nullary main_cst_5 (constant S_ .f32 0x3F800000#32),
    unary main_cst_5 main_v46 (broadcastInDim S8192x512 ![] bcast_S_S8192x512 : (⟨S_, .f32⟩ : BufTy).Contents (Elt F) → (⟨S8192x512, .f32⟩ : BufTy).Contents (Elt F)),
    binary main_v45 main_v46 main_v47 (Host.divf : (⟨S8192x512, .f32⟩ : BufTy).Contents (Elt F) → (⟨S8192x512, .f32⟩ : BufTy).Contents (Elt F) → (⟨S8192x512, .f32⟩ : BufTy).Contents (Elt F)),
    binary main_v47 main_v44 main_v48 (addf : (⟨S8192x512, .f32⟩ : BufTy).Contents (Elt F) → (⟨S8192x512, .f32⟩ : BufTy).Contents (Elt F) → (⟨S8192x512, .f32⟩ : BufTy).Contents (Elt F)),
    nullary main_cst_6 (constant S_ .f32 0x3DCCCCCD#32),
    unary main_cst_6 main_v49 (broadcastInDim S8192x512 ![] bcast_S_S8192x512 : (⟨S_, .f32⟩ : BufTy).Contents (Elt F) → (⟨S8192x512, .f32⟩ : BufTy).Contents (Elt F)),
    binary main_v49 main_v48 main_v50 (mulf : (⟨S8192x512, .f32⟩ : BufTy).Contents (Elt F) → (⟨S8192x512, .f32⟩ : BufTy).Contents (Elt F) → (⟨S8192x512, .f32⟩ : BufTy).Contents (Elt F)),
    binary main_v38 main_v50 main_v51 (addf : (⟨S8192x512, .f32⟩ : BufTy).Contents (Elt F) → (⟨S8192x512, .f32⟩ : BufTy).Contents (Elt F) → (⟨S8192x512, .f32⟩ : BufTy).Contents (Elt F)) ]

/-- Step 5: the fifteen operations from the state in `main_v51` to the state in `main_v64`. -/
def seg4 : List (HloOp τ sig (Elt F)) :=
  [ binary main_arg0 main_v51 main_v52 ((fun a b => concatenate S8192x1024 1 [⟨S8192x512, a⟩, ⟨S8192x512, b⟩] concatenates_S8192x512_S8192x512_S8192x1024_d1) : (⟨S8192x512, .f32⟩ : BufTy).Contents (Elt F) → (⟨S8192x512, .f32⟩ : BufTy).Contents (Elt F) → (⟨S8192x1024, .f32⟩ : BufTy).Contents (Elt F)),
    binary main_v52 main_arg2 main_v53 ((fun l r => Host.dotGeneral dot_S8192x1024_S1024x512_S8192x512_1_0_0_1_n_n none l r) : (⟨S8192x1024, .f32⟩ : BufTy).Contents (Elt F) → (⟨S1024x512, .f32⟩ : BufTy).Contents (Elt F) → (⟨S8192x512, .f32⟩ : BufTy).Contents (Elt F)),
    unary main_arg3 main_v54 (broadcastInDim S1x512 ![1] bcast_S512_S1x512_1 : (⟨S512, .f32⟩ : BufTy).Contents (Elt F) → (⟨S1x512, .f32⟩ : BufTy).Contents (Elt F)),
    unary main_v54 main_v55 (broadcastInDim S8192x512 ![0, 1] bcast_S1x512_S8192x512_0_1 : (⟨S1x512, .f32⟩ : BufTy).Contents (Elt F) → (⟨S8192x512, .f32⟩ : BufTy).Contents (Elt F)),
    binary main_v53 main_v55 main_v56 (addf : (⟨S8192x512, .f32⟩ : BufTy).Contents (Elt F) → (⟨S8192x512, .f32⟩ : BufTy).Contents (Elt F) → (⟨S8192x512, .f32⟩ : BufTy).Contents (Elt F)),
    unary main_v56 main_v57 (Host.tanh : (⟨S8192x512, .f32⟩ : BufTy).Contents (Elt F) → (⟨S8192x512, .f32⟩ : BufTy).Contents (Elt F)),
    unary main_v51 main_v58 (Host.negf : (⟨S8192x512, .f32⟩ : BufTy).Contents (Elt F) → (⟨S8192x512, .f32⟩ : BufTy).Contents (Elt F)),
    nullary main_cst_7 (constant S_ .f32 0x3F800000#32),
    unary main_cst_7 main_v59 (broadcastInDim S8192x512 ![] bcast_S_S8192x512 : (⟨S_, .f32⟩ : BufTy).Contents (Elt F) → (⟨S8192x512, .f32⟩ : BufTy).Contents (Elt F)),
    binary main_v58 main_v59 main_v60 (Host.divf : (⟨S8192x512, .f32⟩ : BufTy).Contents (Elt F) → (⟨S8192x512, .f32⟩ : BufTy).Contents (Elt F) → (⟨S8192x512, .f32⟩ : BufTy).Contents (Elt F)),
    binary main_v60 main_v57 main_v61 (addf : (⟨S8192x512, .f32⟩ : BufTy).Contents (Elt F) → (⟨S8192x512, .f32⟩ : BufTy).Contents (Elt F) → (⟨S8192x512, .f32⟩ : BufTy).Contents (Elt F)),
    nullary main_cst_8 (constant S_ .f32 0x3DCCCCCD#32),
    unary main_cst_8 main_v62 (broadcastInDim S8192x512 ![] bcast_S_S8192x512 : (⟨S_, .f32⟩ : BufTy).Contents (Elt F) → (⟨S8192x512, .f32⟩ : BufTy).Contents (Elt F)),
    binary main_v62 main_v61 main_v63 (mulf : (⟨S8192x512, .f32⟩ : BufTy).Contents (Elt F) → (⟨S8192x512, .f32⟩ : BufTy).Contents (Elt F) → (⟨S8192x512, .f32⟩ : BufTy).Contents (Elt F)),
    binary main_v51 main_v63 main_v64 (addf : (⟨S8192x512, .f32⟩ : BufTy).Contents (Elt F) → (⟨S8192x512, .f32⟩ : BufTy).Contents (Elt F) → (⟨S8192x512, .f32⟩ : BufTy).Contents (Elt F)) ]

/-- Step 6: the fifteen operations from the state in `main_v64` to the state in `main_v77`. -/
def seg5 : List (HloOp τ sig (Elt F)) :=
  [ binary main_arg0 main_v64 main_v65 ((fun a b => concatenate S8192x1024 1 [⟨S8192x512, a⟩, ⟨S8192x512, b⟩] concatenates_S8192x512_S8192x512_S8192x1024_d1) : (⟨S8192x512, .f32⟩ : BufTy).Contents (Elt F) → (⟨S8192x512, .f32⟩ : BufTy).Contents (Elt F) → (⟨S8192x1024, .f32⟩ : BufTy).Contents (Elt F)),
    binary main_v65 main_arg2 main_v66 ((fun l r => Host.dotGeneral dot_S8192x1024_S1024x512_S8192x512_1_0_0_1_n_n none l r) : (⟨S8192x1024, .f32⟩ : BufTy).Contents (Elt F) → (⟨S1024x512, .f32⟩ : BufTy).Contents (Elt F) → (⟨S8192x512, .f32⟩ : BufTy).Contents (Elt F)),
    unary main_arg3 main_v67 (broadcastInDim S1x512 ![1] bcast_S512_S1x512_1 : (⟨S512, .f32⟩ : BufTy).Contents (Elt F) → (⟨S1x512, .f32⟩ : BufTy).Contents (Elt F)),
    unary main_v67 main_v68 (broadcastInDim S8192x512 ![0, 1] bcast_S1x512_S8192x512_0_1 : (⟨S1x512, .f32⟩ : BufTy).Contents (Elt F) → (⟨S8192x512, .f32⟩ : BufTy).Contents (Elt F)),
    binary main_v66 main_v68 main_v69 (addf : (⟨S8192x512, .f32⟩ : BufTy).Contents (Elt F) → (⟨S8192x512, .f32⟩ : BufTy).Contents (Elt F) → (⟨S8192x512, .f32⟩ : BufTy).Contents (Elt F)),
    unary main_v69 main_v70 (Host.tanh : (⟨S8192x512, .f32⟩ : BufTy).Contents (Elt F) → (⟨S8192x512, .f32⟩ : BufTy).Contents (Elt F)),
    unary main_v64 main_v71 (Host.negf : (⟨S8192x512, .f32⟩ : BufTy).Contents (Elt F) → (⟨S8192x512, .f32⟩ : BufTy).Contents (Elt F)),
    nullary main_cst_9 (constant S_ .f32 0x3F800000#32),
    unary main_cst_9 main_v72 (broadcastInDim S8192x512 ![] bcast_S_S8192x512 : (⟨S_, .f32⟩ : BufTy).Contents (Elt F) → (⟨S8192x512, .f32⟩ : BufTy).Contents (Elt F)),
    binary main_v71 main_v72 main_v73 (Host.divf : (⟨S8192x512, .f32⟩ : BufTy).Contents (Elt F) → (⟨S8192x512, .f32⟩ : BufTy).Contents (Elt F) → (⟨S8192x512, .f32⟩ : BufTy).Contents (Elt F)),
    binary main_v73 main_v70 main_v74 (addf : (⟨S8192x512, .f32⟩ : BufTy).Contents (Elt F) → (⟨S8192x512, .f32⟩ : BufTy).Contents (Elt F) → (⟨S8192x512, .f32⟩ : BufTy).Contents (Elt F)),
    nullary main_cst_10 (constant S_ .f32 0x3DCCCCCD#32),
    unary main_cst_10 main_v75 (broadcastInDim S8192x512 ![] bcast_S_S8192x512 : (⟨S_, .f32⟩ : BufTy).Contents (Elt F) → (⟨S8192x512, .f32⟩ : BufTy).Contents (Elt F)),
    binary main_v75 main_v74 main_v76 (mulf : (⟨S8192x512, .f32⟩ : BufTy).Contents (Elt F) → (⟨S8192x512, .f32⟩ : BufTy).Contents (Elt F) → (⟨S8192x512, .f32⟩ : BufTy).Contents (Elt F)),
    binary main_v64 main_v76 main_v77 (addf : (⟨S8192x512, .f32⟩ : BufTy).Contents (Elt F) → (⟨S8192x512, .f32⟩ : BufTy).Contents (Elt F) → (⟨S8192x512, .f32⟩ : BufTy).Contents (Elt F)) ]

set_option maxRecDepth 8192 in
/-- The line is its six groups, one after the other. -/
theorem ops_split : (ops : List (HloOp τ sig (Elt F))) = seg0 ++ (seg1 ++ (seg2 ++ (seg3 ++ (seg4 ++ seg5)))) := rfl

/-- Running two lines one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## One group at a time -/

theorem seg0_out (V : Valuation τ sig (Elt F)) : after seg0 V (Proc.devRef .tc main_v12)
    = eulerStep (V (Proc.devRef .tc main_arg0)) (V (Proc.devRef .tc main_arg2)) (V (Proc.devRef .tc main_arg3)) (V (Proc.devRef .tc main_arg1)) := by
  unfold seg0; after_results; rfl
theorem seg0_arg0 (V : Valuation τ sig (Elt F)) : after seg0 V (Proc.devRef .tc main_arg0) = V (Proc.devRef .tc main_arg0) := by
  unfold seg0; after_results
theorem seg0_arg1 (V : Valuation τ sig (Elt F)) : after seg0 V (Proc.devRef .tc main_arg1) = V (Proc.devRef .tc main_arg1) := by
  unfold seg0; after_results
theorem seg0_arg2 (V : Valuation τ sig (Elt F)) : after seg0 V (Proc.devRef .tc main_arg2) = V (Proc.devRef .tc main_arg2) := by
  unfold seg0; after_results
theorem seg0_arg3 (V : Valuation τ sig (Elt F)) : after seg0 V (Proc.devRef .tc main_arg3) = V (Proc.devRef .tc main_arg3) := by
  unfold seg0; after_results

theorem seg1_out (V : Valuation τ sig (Elt F)) : after seg1 V (Proc.devRef .tc main_v25)
    = eulerStep (V (Proc.devRef .tc main_arg0)) (V (Proc.devRef .tc main_arg2)) (V (Proc.devRef .tc main_arg3)) (V (Proc.devRef .tc main_v12)) := by
  unfold seg1; after_results; rfl
theorem seg1_arg0 (V : Valuation τ sig (Elt F)) : after seg1 V (Proc.devRef .tc main_arg0) = V (Proc.devRef .tc main_arg0) := by
  unfold seg1; after_results
theorem seg1_arg1 (V : Valuation τ sig (Elt F)) : after seg1 V (Proc.devRef .tc main_arg1) = V (Proc.devRef .tc main_arg1) := by
  unfold seg1; after_results
theorem seg1_arg2 (V : Valuation τ sig (Elt F)) : after seg1 V (Proc.devRef .tc main_arg2) = V (Proc.devRef .tc main_arg2) := by
  unfold seg1; after_results
theorem seg1_arg3 (V : Valuation τ sig (Elt F)) : after seg1 V (Proc.devRef .tc main_arg3) = V (Proc.devRef .tc main_arg3) := by
  unfold seg1; after_results

theorem seg2_out (V : Valuation τ sig (Elt F)) : after seg2 V (Proc.devRef .tc main_v38)
    = eulerStep (V (Proc.devRef .tc main_arg0)) (V (Proc.devRef .tc main_arg2)) (V (Proc.devRef .tc main_arg3)) (V (Proc.devRef .tc main_v25)) := by
  unfold seg2; after_results; rfl
theorem seg2_arg0 (V : Valuation τ sig (Elt F)) : after seg2 V (Proc.devRef .tc main_arg0) = V (Proc.devRef .tc main_arg0) := by
  unfold seg2; after_results
theorem seg2_arg1 (V : Valuation τ sig (Elt F)) : after seg2 V (Proc.devRef .tc main_arg1) = V (Proc.devRef .tc main_arg1) := by
  unfold seg2; after_results
theorem seg2_arg2 (V : Valuation τ sig (Elt F)) : after seg2 V (Proc.devRef .tc main_arg2) = V (Proc.devRef .tc main_arg2) := by
  unfold seg2; after_results
theorem seg2_arg3 (V : Valuation τ sig (Elt F)) : after seg2 V (Proc.devRef .tc main_arg3) = V (Proc.devRef .tc main_arg3) := by
  unfold seg2; after_results

theorem seg3_out (V : Valuation τ sig (Elt F)) : after seg3 V (Proc.devRef .tc main_v51)
    = eulerStep (V (Proc.devRef .tc main_arg0)) (V (Proc.devRef .tc main_arg2)) (V (Proc.devRef .tc main_arg3)) (V (Proc.devRef .tc main_v38)) := by
  unfold seg3; after_results; rfl
theorem seg3_arg0 (V : Valuation τ sig (Elt F)) : after seg3 V (Proc.devRef .tc main_arg0) = V (Proc.devRef .tc main_arg0) := by
  unfold seg3; after_results
theorem seg3_arg1 (V : Valuation τ sig (Elt F)) : after seg3 V (Proc.devRef .tc main_arg1) = V (Proc.devRef .tc main_arg1) := by
  unfold seg3; after_results
theorem seg3_arg2 (V : Valuation τ sig (Elt F)) : after seg3 V (Proc.devRef .tc main_arg2) = V (Proc.devRef .tc main_arg2) := by
  unfold seg3; after_results
theorem seg3_arg3 (V : Valuation τ sig (Elt F)) : after seg3 V (Proc.devRef .tc main_arg3) = V (Proc.devRef .tc main_arg3) := by
  unfold seg3; after_results

theorem seg4_out (V : Valuation τ sig (Elt F)) : after seg4 V (Proc.devRef .tc main_v64)
    = eulerStep (V (Proc.devRef .tc main_arg0)) (V (Proc.devRef .tc main_arg2)) (V (Proc.devRef .tc main_arg3)) (V (Proc.devRef .tc main_v51)) := by
  unfold seg4; after_results; rfl
theorem seg4_arg0 (V : Valuation τ sig (Elt F)) : after seg4 V (Proc.devRef .tc main_arg0) = V (Proc.devRef .tc main_arg0) := by
  unfold seg4; after_results
theorem seg4_arg1 (V : Valuation τ sig (Elt F)) : after seg4 V (Proc.devRef .tc main_arg1) = V (Proc.devRef .tc main_arg1) := by
  unfold seg4; after_results
theorem seg4_arg2 (V : Valuation τ sig (Elt F)) : after seg4 V (Proc.devRef .tc main_arg2) = V (Proc.devRef .tc main_arg2) := by
  unfold seg4; after_results
theorem seg4_arg3 (V : Valuation τ sig (Elt F)) : after seg4 V (Proc.devRef .tc main_arg3) = V (Proc.devRef .tc main_arg3) := by
  unfold seg4; after_results

theorem seg5_out (V : Valuation τ sig (Elt F)) : after seg5 V (Proc.devRef .tc main_v77)
    = eulerStep (V (Proc.devRef .tc main_arg0)) (V (Proc.devRef .tc main_arg2)) (V (Proc.devRef .tc main_arg3)) (V (Proc.devRef .tc main_v64)) := by
  unfold seg5; after_results; rfl
theorem seg5_arg0 (V : Valuation τ sig (Elt F)) : after seg5 V (Proc.devRef .tc main_arg0) = V (Proc.devRef .tc main_arg0) := by
  unfold seg5; after_results
theorem seg5_arg1 (V : Valuation τ sig (Elt F)) : after seg5 V (Proc.devRef .tc main_arg1) = V (Proc.devRef .tc main_arg1) := by
  unfold seg5; after_results
theorem seg5_arg2 (V : Valuation τ sig (Elt F)) : after seg5 V (Proc.devRef .tc main_arg2) = V (Proc.devRef .tc main_arg2) := by
  unfold seg5; after_results
theorem seg5_arg3 (V : Valuation τ sig (Elt F)) : after seg5 V (Proc.devRef .tc main_arg3) = V (Proc.devRef .tc main_arg3) := by
  unfold seg5; after_results

/-! ## The whole line -/

/-- After the ninety operations the last state buffer holds six Euler steps of the state argument. -/
theorem after_ops_out (V : Valuation τ sig (Elt F)) : after ops V (Proc.devRef .tc main_v77)
    = (eulerStep (V (Proc.devRef .tc main_arg0)) (V (Proc.devRef .tc main_arg2)) (V (Proc.devRef .tc main_arg3)))^[6] (V (Proc.devRef .tc main_arg1)) := by
  rw [ops_split, after_append, after_append, after_append, after_append, after_append,
    seg5_out, seg4_out, seg3_out, seg2_out, seg1_out, seg0_out,
    seg4_arg0, seg3_arg0, seg2_arg0, seg1_arg0, seg0_arg0,
    seg4_arg2, seg3_arg2, seg2_arg2, seg1_arg2, seg0_arg2,
    seg4_arg3, seg3_arg3, seg2_arg3, seg1_arg3, seg0_arg3]
  rfl

theorem after_ops_arg0 (V : Valuation τ sig (Elt F)) : after ops V (Proc.devRef .tc main_arg0) = V (Proc.devRef .tc main_arg0) := by
  rw [ops_split, after_append, after_append, after_append, after_append, after_append,
    seg5_arg0, seg4_arg0, seg3_arg0, seg2_arg0, seg1_arg0, seg0_arg0]
theorem after_ops_arg1 (V : Valuation τ sig (Elt F)) : after ops V (Proc.devRef .tc main_arg1) = V (Proc.devRef .tc main_arg1) := by
  rw [ops_split, after_append, after_append, after_append, after_append, after_append,
    seg5_arg1, seg4_arg1, seg3_arg1, seg2_arg1, seg1_arg1, seg0_arg1]
theorem after_ops_arg2 (V : Valuation τ sig (Elt F)) : after ops V (Proc.devRef .tc main_arg2) = V (Proc.devRef .tc main_arg2) := by
  rw [ops_split, after_append, after_append, after_append, after_append, after_append,
    seg5_arg2, seg4_arg2, seg3_arg2, seg2_arg2, seg1_arg2, seg0_arg2]
theorem after_ops_arg3 (V : Valuation τ sig (Elt F)) : after ops V (Proc.devRef .tc main_arg3) = V (Proc.devRef .tc main_arg3) := by
  rw [ops_split, after_append, after_append, after_append, after_append, after_append,
    seg5_arg3, seg4_arg3, seg3_arg3, seg2_arg3, seg1_arg3, seg0_arg3]

/-- THE REFERENCE'S RUN: every weakly fair execution terminates with the result buffer at six Euler steps of the
    state argument and the four arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77)
          = (eulerStep (m ((c.tc : Thread nD τ).loc main_arg0)) (m ((c.tc : Thread nD τ).loc main_arg2))
              (m ((c.tc : Thread nD τ).loc main_arg3)))^[6] (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v77).trans (after_ops_out _),
      (h c main_arg0).trans (after_ops_arg0 _),
      (h c main_arg1).trans (after_ops_arg1 _),
      (h c main_arg2).trans (after_ops_arg2 _),
      (h c main_arg3).trans (after_ops_arg3 _)⟩)
    (run_seq scopedRefs_eq scopedSems_eq defs main (fun _ => ops) main_eq (fun _ => ops_sub) m ρ)

end Cert.ReferenceIdeal.Line

end
-- ==== Proof.RefEuler.lean ====
/-
  The reference program, read entry by entry.

  The reference applies the Euler form of the step six times: the state s goes to
  s + dt · ( −s/1 + tanh( [x , s] · W + b ) ), with [x , s] the concatenation along columns. Its run returns
  the six-fold composite of one function of the state (`Line.eulerStep`). On arrays of real entries one application
  is the cell's step (`eulerStep_apply`): the product with the concatenation is read as a sum over 1024 columns
  whose first 512 terms come from x and last 512 from s, the bias is broadcast along rows, the division by the
  constant one is the identity, and then the real identity `Cell.cell_euler` applies.
-/
import proofs.«108348_j31550829756934_2_alg».proof.Proof.RefRun
import Idealize.ShloMosaic.Lib.ValueIdx
import Idealize.ShloMosaic.Lib.Pipeline.Value
import proofs.«108348_j31550829756934_2_alg».proof.Proof.LibContractPlain
import proofs.«108348_j31550829756934_2_alg».proof.Proof.Cell

set_option pp.maxSteps 5000
set_option pp.deepTerms false

noncomputable section

namespace Cert.ReferenceIdeal.Euler

open Cert.ReferenceIdeal Cert.ReferenceIdeal.Gen Cert.ReferenceIdeal.Line Idealize.ShloMosaic
open Idealize.ShloMosaic.ValueIdx Idealize.ShloMosaic.StableHlo Cert.Cell

/-! ## At the ideal values -/

variable (x : Fin 8192 → Fin 512 → ℝ) (w : Fin 1024 → Fin 512 → ℝ) (b : Fin 512 → ℝ)

/-- The concatenation [X , S] at an entry, on real entries. -/
theorem concat_apply (s : Fin 8192 → Fin 512 → ℝ) (X S : FVec Ideal S8192x512 .f32)
    (hX : ∀ p k, X (ix2 p k) = ((x p k : ℝ) : EReal)) (hS : ∀ p k, S (ix2 p k) = ((s p k : ℝ) : EReal))
    (p : Fin 8192) (k : Fin 1024) :
    concatenate S8192x1024 1 [⟨S8192x512, X⟩, ⟨S8192x512, S⟩] concatenates_S8192x512_S8192x512_S8192x1024_d1 (ix2 p k)
      = ((cat x s p k : ℝ) : EReal) := by
  unfold cat
  by_cases h : k.val < 512
  · rw [dif_pos h]
    refine (concatenate_pair_apply_left (1 : Fin 2) X S concatenates_S8192x512_S8192x512_S8192x1024_d1 (ix2 p k) rfl
      (ix2 p ⟨k.val, h⟩) (fun a => by
        match a with
        | ⟨0, _⟩ => rfl
        | ⟨1, _⟩ => rfl)).trans ?_
    exact hX _ _
  · rw [dif_neg h]
    refine (concatenate_pair_apply_right (1 : Fin 2) X S concatenates_S8192x512_S8192x512_S8192x1024_d1 (ix2 p k) rfl rfl
      (ix2 p ⟨k.val - 512, by omega⟩) (fun a ha => by
        match a with
        | ⟨0, _⟩ => rfl
        | ⟨1, _⟩ => exact absurd (Fin.ext rfl) ha) (by
        show k.val - 512 + 512 = k.val; omega)).trans ?_
    exact hS _ _

/-- One Euler step on arrays of real entries is the cell's step. -/
theorem eulerStep_apply (s : Fin 8192 → Fin 512 → ℝ) (X : FVec Ideal S8192x512 .f32)
    (W : FVec Ideal S1024x512 .f32) (B : FVec Ideal S512 .f32) (S : FVec Ideal S8192x512 .f32)
    (hX : ∀ p k, X (ix2 p k) = ((x p k : ℝ) : EReal))
    (hW : ∀ k q, W (ix2 k q) = ((w k q : ℝ) : EReal))
    (hB : ∀ q, B (ix1 q) = ((b q : ℝ) : EReal))
    (hS : ∀ p k, S (ix2 p k) = ((s p k : ℝ) : EReal)) (p : Fin 8192) (q : Fin 512) :
    eulerStep X W B S (ix2 p q) = ((cell x w b s p q : ℝ) : EReal) := by
  have e : eulerStep X W B S (ix2 p q)
      = S (ix2 p q) + Ideal.ofBits .f32 0x3DCCCCCD#32 * (Ideal.div (-(S (ix2 p q))) (Ideal.ofBits .f32 0x3F800000#32)
          + Ideal.tanh (Host.dotGeneral dot_S8192x1024_S1024x512_S8192x512_1_0_0_1_n_n none
              (concatenate S8192x1024 1 [⟨S8192x512, X⟩, ⟨S8192x512, S⟩] concatenates_S8192x512_S8192x512_S8192x1024_d1) W (ix2 p q)
            + broadcastInDim S8192x512 ![0, 1] bcast_S1x512_S8192x512_0_1
                (broadcastInDim S1x512 ![1] bcast_S512_S1x512_1 B) (ix2 p q))) := rfl
  have hb : broadcastInDim S8192x512 ![0, 1] bcast_S1x512_S8192x512_0_1
      (broadcastInDim S1x512 ![1] bcast_S512_S1x512_1 B) (ix2 p q) = ((b q : ℝ) : EReal) := by
    refine (broadcastInDim_apply _ _ _ (ix2 p q) (ix2 (0 : Fin 1) q) (fun a => by
      match a with
      | ⟨0, _⟩ => rfl
      | ⟨1, _⟩ => rfl)).trans ?_
    refine (broadcastInDim_apply _ _ B (ix2 (0 : Fin 1) q) (ix1 q) (fun a => by
      match a with
      | ⟨0, _⟩ => rfl)).trans ?_
    exact hB q
  have hd : Host.dotGeneral dot_S8192x1024_S1024x512_S8192x512_1_0_0_1_n_n none
        (concatenate S8192x1024 1 [⟨S8192x512, X⟩, ⟨S8192x512, S⟩] concatenates_S8192x512_S8192x512_S8192x1024_d1) W (ix2 p q)
      = ∑ k : Fin 1024, concatenate S8192x1024 1 [⟨S8192x512, X⟩, ⟨S8192x512, S⟩]
          concatenates_S8192x512_S8192x512_S8192x1024_d1 (ix2 p k) * W (ix2 k q) :=
    Cert.Lib.ContractPlain.hostDot_apply (M := 8192) (K := 1024) (N := 512) _ rfl none _ W p q
  rw [e, hb, hd, ofBits_dt, ofBits_one, hS]
  simp only [concat_apply x s X S hX hS, hW]
  exact (euler_coe _ _ _ _).trans (congrArg (fun r : ℝ => (r : EReal)) (cell_euler x w b s p q))

/-- n Euler steps on arrays of real entries are n steps of the cell. -/
theorem eulerIter_apply (X : FVec Ideal S8192x512 .f32) (W : FVec Ideal S1024x512 .f32) (B : FVec Ideal S512 .f32)
    (hX : ∀ p k, X (ix2 p k) = ((x p k : ℝ) : EReal))
    (hW : ∀ k q, W (ix2 k q) = ((w k q : ℝ) : EReal))
    (hB : ∀ q, B (ix1 q) = ((b q : ℝ) : EReal)) :
    ∀ (n : Nat) (s : Fin 8192 → Fin 512 → ℝ) (S : FVec Ideal S8192x512 .f32)
      (_ : ∀ p k, S (ix2 p k) = ((s p k : ℝ) : EReal)) (p : Fin 8192) (q : Fin 512),
      ((eulerStep X W B)^[n] S) (ix2 p q) = ((((cell x w b)^[n] s) p q : ℝ) : EReal)
  | 0, s, S, hS, p, q => hS p q
  | n + 1, s, S, hS, p, q => by
    rw [Function.iterate_succ_apply', Function.iterate_succ_apply']
    exact eulerStep_apply x w b _ X W B _ hX hW hB (eulerIter_apply X W B hX hW hB n s S hS) p q

/-- THE REFERENCE'S VALUE: on finite arguments, six Euler steps are `Cell.result`. -/
theorem six_eq_result (X S : FVec Ideal S8192x512 .f32) (W : FVec Ideal S1024x512 .f32) (B : FVec Ideal S512 .f32)
    (hX : Finite X) (hS : Finite S) (hW : Finite W) (hB : Finite B) :
    (eulerStep X W B)^[6] S = result X S W B := by
  funext i
  obtain ⟨p, q, rfl⟩ : ∃ (p : Fin 8192) (q : Fin 512), i = ix2 p q := ⟨i 0, i 1, eq_ix2 i⟩
  exact eulerIter_apply (mat X) (mat W) (vec B) X W B (mat_coe hX) (mat_coe hW) (vec_coe hB) 6 (mat S) S (mat_coe hS) p q

end Cert.ReferenceIdeal.Euler

end
-- ==== Proof.Finite.lean ====
/-
  The precondition, read back: every entry of the four argument arrays is a real number.

  The printed precondition is the conjunction of four tests, one per argument: all entries satisfy |x| < +∞.
  A conjunction of one-bit words is 1 exactly when each is; an `all` over an array is 1 only if every entry's test
  is 1; and |x| < +∞ on the extended reals says that x is neither infinity.
-/
import proofs.«108348_j31550829756934_2_alg».proof.Proof.Gen.Pre_finite_inputs
import Idealize.ShloMosaic.Lib.ReduceAll
import Idealize.ShloMosaic.Lib.Affine
import Idealize.ShloMosaic.Lib.ValueIdx
import proofs.«108348_j31550829756934_2_alg».proof.Proof.LibFinite
import proofs.«108348_j31550829756934_2_alg».proof.Proof.Cell

set_option pp.maxSteps 5000
set_option pp.deepTerms false

noncomputable section

namespace Cert.Pre_finite_inputs.Decode

open Cert.Pre_finite_inputs Cert.Pre_finite_inputs.Gen Idealize.ShloMosaic Cert.Cell

instance : Subsingleton S_.Idx := ⟨fun a b => funext fun d => d.elim0⟩

/-- If the printed precondition is all ones, all four arguments have only real entries. -/
theorem finite_of_pre (X S : FVec Ideal S8192x512 .f32) (W : FVec Ideal S1024x512 .f32) (B : FVec Ideal S512 .f32)
    (h : fn (F := Ideal) X S W B = fun _ => 1#1) : Finite X ∧ Finite S ∧ Finite W ∧ Finite B := by
  have h0 := congrFun h ValueIdx.ix0
  dsimp only [fn, fn_part1] at h0
  obtain ⟨h012, h3⟩ := IntOp.andi_eq_one.mp h0
  obtain ⟨h01, h2⟩ := IntOp.andi_eq_one.mp h012
  obtain ⟨hx, hs⟩ := IntOp.andi_eq_one.mp h01
  refine ⟨fun i => ?_, fun i => ?_, fun i => ?_, fun i => ?_⟩
  · exact Cert.LibFinite.finite_of_abs_lt _ (Host.reduce_andi_all _ _ _ _ _ hx i)
  · exact Cert.LibFinite.finite_of_abs_lt _ (Host.reduce_andi_all _ _ _ _ _ hs i)
  · exact Cert.LibFinite.finite_of_abs_lt _ (Host.reduce_andi_all _ _ _ _ _ h2 i)
  · exact Cert.LibFinite.finite_of_abs_lt _ (Host.reduce_andi_all _ _ _ _ _ h3 i)

end Cert.Pre_finite_inputs.Decode

end
-- ==== Proof.lean ====
/-
  A continuous-time recurrent cell, unrolled for six Euler steps: the tiled kernel against the plain reference.

  Both programs take an input x and a state s (8192 × 512 each), a weight matrix W (1024 × 512) and a bias b, and
  return the state after six steps of

      s  ↦  s + dt · ( −s/1 + tanh( [x , s] · W + b ) ),        dt the single-precision number nearest 0.1.

  The reference computes exactly this. The kernel cuts the 8192 rows into eight tiles of 1024, computes the
  input projection x · W_upper + b of a tile once, and advances the two halves of the tile by
  (1 − dt) · s + dt · tanh( (x · W_upper + b) + s · W_lower ), where the constant written (1 − dt) is NAMED to
  denote one minus the exact value of dt. On real entries the two steps are the same function
  (`Cell.cell_euler`: a sum over 1024 columns split in two, a reassociation, and distributivity — the step
  that needs the entries to be finite, which the precondition gives), and rows do not interact, so each tile of
  the kernel's output is the corresponding block of the reference's result.

  The modules: `Cell` (the real arithmetic and the common result `Cell.result`), `TileStep` (the kernel's body on
  one tile), `Whole` (the eight tiles as the output array, and the kernel's run), `RefRun` (the reference's run as six
  applications of one function), `RefEuler` (that function on real entries), `Finite` (the precondition read back).
-/
import proofs.«108348_j31550829756934_2_alg».proof.Defs
import proofs.«108348_j31550829756934_2_alg».proof.Proof.Gen.Kernel
import proofs.«108348_j31550829756934_2_alg».proof.Proof.Gen.Kernel.Frame
import proofs.«108348_j31550829756934_2_alg».proof.Proof.Gen.KernelIdeal
import proofs.«108348_j31550829756934_2_alg».proof.Proof.Gen.KernelIdeal.Frame
import proofs.«108348_j31550829756934_2_alg».proof.Proof.Gen.KernelIdeal.Value
import proofs.«108348_j31550829756934_2_alg».proof.Proof.Gen.ReferenceIdeal
import proofs.«108348_j31550829756934_2_alg».proof.Proof.Gen.Pre_finite_inputs
import proofs.«108348_j31550829756934_2_alg».proof.Proof.Whole
import proofs.«108348_j31550829756934_2_alg».proof.Proof.RefEuler
import proofs.«108348_j31550829756934_2_alg».proof.Proof.Finite
import Idealize.ShloMosaic.Adequacy
import Idealize.ShloMosaic.Init

noncomputable section

namespace Cert.Proof

open Idealize.ShloMosaic Idealize.ShloMosaic.TcCoe Idealize.SL.Sem Cert.Cell

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2) (Cert.ReferenceIdeal.Line.run (F := Ideal) m ρ)

/-- Each of the twelve places where the kernel spells the constant 1 − dt: the table gives the name the value
    120795955 / 2^27, and the named constant is that value. -/
theorem preserves : Cert.preserves_Kernel_KernelIdeal :=
  have s := IdealRules.named_const.statement Cert.KernelIdeal.κ "one_minus_dt" .f32 0x3F666666#32
    ((120795955 / 134217728 : ℝ) : EReal) rfl
  ⟨s, s, s, s, s, s, s, s, s, s, s, s⟩

/-- From finite arguments that agree, both programs end with `Cell.result` of the arguments. -/
theorem algebraic : Cert.algebraic_KernelIdeal_ReferenceIdeal := by
  intro m ρ m' ρ' hpre hagree
  have hfin := fun c => Cert.Pre_finite_inputs.Decode.finite_of_pre _ _ _ _ (hpre c)
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c => ⟨(h c).1, (h c).1, (h c).2⟩)
      (Cert.KernelIdeal.Whole.run m ρ hfin)
  · refine (θ_run Cert.ReferenceIdeal.defs _ _).mono (fun r h c => ?_)
      (Cert.ReferenceIdeal.Line.run (F := Ideal) m' ρ')
    obtain ⟨fx, fs, fw, fb⟩ := hfin c
    obtain ⟨ax, ast, aw, ab⟩ := hagree c
    have e' : r.2.mem ((c.tc : Thread Cert.ReferenceIdeal.nD Cert.ReferenceIdeal.τ).loc Cert.ReferenceIdeal.main_v77)
        = result (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3)) := by
      refine (h c).1.trans ?_
      rw [ax, ast, aw, ab]
      exact Cert.ReferenceIdeal.Euler.six_eq_result _ _ _ _ fx fs fw fb
    exact ⟨e', e', (h c).2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
